-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S1000000x2 : Shape := ⟨2, ![1000000, 2]⟩
abbrev S32x64 : Shape := ⟨2, ![32, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S128x1 .f32) (main_arg10 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S100000x32 .f32) (main_arg1 : IVec S2x3200000 32) (main_arg2 : IVec S1000000x2 32) (main_arg3 : FVec F S32x64 .f32) (main_arg4 : FVec F S64 .f32) (main_arg5 : FVec F S32x64 .f32) (main_arg6 : FVec F S64x64 .f32) (main_arg7 : FVec F S64 .f32) (main_arg8 : FVec F S64x64 .f32) (main_arg9 : FVec F S128x1 .f32) (main_arg10 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_v13 main_v16
-- ==== Kernel.lean ====
abbrev S100000x32 : Shape := ⟨2, ![100000, 32]⟩
abbrev S2x3200000 : Shape := ⟨2, ![2, 3200000]⟩
abbrev S1000000x2 : Shape := ⟨2, ![1000000, 2]⟩
abbrev S32x64 : Shape := ⟨2, ![32, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x32 : Shape := ⟨2, ![3200000, 32]⟩
abbrev S1x64 : Shape := ⟨2, ![1, 64]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S3200000x64 : Shape := ⟨2, ![3200000, 64]⟩
abbrev S1000000x1 : Shape := ⟨2, ![1000000, 1]⟩
abbrev S1000000 : Shape := ⟨1, ![1000000]⟩
abbrev S1000000x64 : Shape := ⟨2, ![1000000, 64]⟩
abbrev S1000000x128 : Shape := ⟨2, ![1000000, 128]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 81
  | .vmem => 28
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S1000000x2, .i32⟩
  | .hbm, ⟨3, _⟩ => ⟨S32x64, .f32⟩
  | .hbm, ⟨4, _⟩ => ⟨S64, .f32⟩
  | .hbm, ⟨5, _⟩ => ⟨S32x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x32, .f32⟩
  | .hbm, ⟨34, _⟩ => ⟨S_, .f32⟩
  | .hbm, ⟨35, _⟩ => ⟨S100000x32, .f32⟩
  | .hbm, ⟨36, _⟩ => ⟨S3200000x1, .i32⟩
  | .hbm, ⟨37, _⟩ => ⟨S100000x32, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x64, .f32⟩
  | .hbm, ⟨49, _⟩ => ⟨S_, .f32⟩
  | .hbm, ⟨50, _⟩ => ⟨S100000x64, .f32⟩
  | .hbm, ⟨51, _⟩ => ⟨S3200000x1, .i32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S1000000x1, .i32⟩
  | .hbm, ⟨56, _⟩ => ⟨S1000000, .i32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x64, .f32⟩
  | .hbm, ⟨66, _⟩ => ⟨S1000000x1, .i32⟩
  | .hbm, ⟨67, _⟩ => ⟨S1000000, .i32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x64, .f32⟩
  | .hbm, ⟨77, _⟩ => ⟨S1000000x128, .f32⟩
  | .hbm, ⟨78, _⟩ => ⟨S1x1, .f32⟩
  | .hbm, ⟨79, _⟩ => ⟨S1000000x1, .f32⟩
  | .hbm, ⟨80, _⟩ => ⟨S1000000, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S32x64, .f32⟩
  | .local _ .vmem, ⟨7, _⟩ => ⟨S1x64, .f32⟩
  | .local _ .vmem, ⟨8, _⟩ => ⟨S32x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S10000x128, .f32⟩
  | .local _ .vmem, ⟨23, _⟩ => ⟨S10000x128, .f32⟩
  | .local _ .vmem, ⟨24, _⟩ => ⟨S128x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x64_S1000000x64_S1000000x128_d1 : Shape.Concatenates [S1000000x64, S1000000x64] S1000000x128 1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x64_S5000x64_1_0_0_1_n_n_wf : DotDims.WF S5000x32 S32x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1000000x128.size a
  hwx2_0 : ∀ i : grid2.Coords, EltTy.bits .f32 = 32 ∨ (Rect.block (s := S1000000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S1000000x1.size a
  hwx2_3 : ∀ i : grid2.Coords, EltTy.bits .f32 = 32 ∨ (Rect.block (s := S1000000x1) S10000x1.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v20) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S1000000x2 : Shape := ⟨2, ![1000000, 2]⟩
abbrev S32x64 : Shape := ⟨2, ![32, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S1000000x1 : Shape := ⟨2, ![1000000, 1]⟩
abbrev S1000000 : Shape := ⟨1, ![1000000]⟩
abbrev S1000000x64 : Shape := ⟨2, ![1000000, 64]⟩
abbrev S1000000x128 : Shape := ⟨2, ![1000000, 128]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S1000000x2, .i32⟩
  | .hbm, ⟨3, _⟩ => ⟨S32x64, .f32⟩
  | .hbm, ⟨4, _⟩ => ⟨S64, .f32⟩
  | .hbm, ⟨5, _⟩ => ⟨S32x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S_, .f32⟩
  | .hbm, ⟨29, _⟩ => ⟨S3200000, .f32⟩
  | .hbm, ⟨30, _⟩ => ⟨S_, .f32⟩
  | .hbm, ⟨31, _⟩ => ⟨S100000, .f32⟩
  | .hbm, ⟨32, _⟩ => ⟨S3200000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x3200000, .i32⟩
  | .hbm, ⟨50, _⟩ => ⟨S3200000, .i32⟩
  | .hbm, ⟨51, _⟩ => ⟨S1x3200000, .i32⟩
  | .hbm, ⟨52, _⟩ => ⟨S3200000, .i32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x64, .f32⟩
  | .hbm, ⟨62, _⟩ => ⟨S_, .f32⟩
  | .hbm, ⟨63, _⟩ => ⟨S100000x64, .f32⟩
  | .hbm, ⟨64, _⟩ => ⟨S3200000x1, .i32⟩
  | .hbm, ⟨65, _⟩ => ⟨S100000x64, .f32⟩
  | .hbm, ⟨66, _⟩ => ⟨S_, .f32⟩
  | .hbm, ⟨67, _⟩ => ⟨S3200000, .f32⟩
  | .hbm, ⟨68, _⟩ => ⟨S_, .f32⟩
  | .hbm, ⟨69, _⟩ => ⟨S100000, .f32⟩
  | .hbm, ⟨70, _⟩ => ⟨S3200000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S1000000x1, .i32⟩
  | .hbm, ⟨88, _⟩ => ⟨S1000000, .i32⟩
  | .hbm, ⟨89, _⟩ => ⟨S_, .i32⟩
  | .hbm, ⟨90, _⟩ => ⟨S1000000, .i32⟩
  | .hbm, ⟨91, _⟩ => ⟨S1000000, .i1⟩
  | .hbm, ⟨92, _⟩ => ⟨S_, .i32⟩
  | .hbm, ⟨93, _⟩ => ⟨S1000000, .i32⟩
  | .hbm, ⟨94, _⟩ => ⟨S1000000, .i32⟩
  | .hbm, ⟨95, _⟩ => ⟨S1000000, .i32⟩
  | .hbm, ⟨96, _⟩ => ⟨S1000000x1, .i32⟩
  | .hbm, ⟨97, _⟩ => ⟨S1000000x64, .f32⟩
  | .hbm, ⟨98, _⟩ => ⟨S1000000x1, .i32⟩
  | .hbm, ⟨99, _⟩ => ⟨S1000000, .i32⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1000000x64, .f32⟩
  | .hbm, ⟨109, _⟩ => ⟨S1000000x128, .f32⟩
  | .hbm, ⟨110, _⟩ => ⟨S1000000x1, .f32⟩
  | .hbm, ⟨111, _⟩ => ⟨S1x1, .f32⟩
  | .hbm, ⟨112, _⟩ => ⟨S1000000x1, .f32⟩
  | .hbm, ⟨113, _⟩ => ⟨S1000000x1, .f32⟩
  | .hbm, ⟨114, _⟩ => ⟨S1000000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x64_S1000000x64_S1000000x128_d1 : Shape.Concatenates [S1000000x64, S1000000x64] S1000000x128 1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S100000x32_S32x64_S100000x64_1_0_0_1_n_n_wf : DotDims.WF S100000x32 S32x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x128_S128x1_S1000000x1_1_0_0_1_n_n_wf : DotDims.WF S1000000x128 S128x1 S1000000x1 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.KernelRun.lean ====
/-
  The idealized kernel program's run, with its buffers NAMED.

  @main is seven segments: host operations, the first layer's region, host operations, the second layer's region, host
  operations, the pair head's region, and one last reshape. The buffer contents at each boundary are a fold from the
  launch memory: a host stretch applies its operations, a region leaves its arrays at what its write-backs make of them
  and every other buffer as it found it. `run_last` says every weakly fair execution ends with every buffer at the
  last boundary's contents; the lemmas after it read that fold at the buffers that matter — each region's input
  arrays on entry, as the shared host chains of `HostGlue` applied to the arguments and to the previous region's
  output array, and the program's result as the reshape of the last region's output array.
-/
import proofs.«179705_j7584912245133_2_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents `W7`. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.HostGlue.lean ====
/-
  The host-side graph operations that BOTH programs apply, each named once as a function of the arrays it reads,
  so that the two programs' results can be compared by comparing what goes INTO these functions and never by opening them:

  * `src`, `dst`   — the two rows of the edge list (an edge goes from `src e` to `dst e`);
  * `wrap`, `wrapP` — an index array with negative entries shifted by the number of nodes, as a column of gather indices;
  * `cnt`          — per node, max(number of incoming edges, 1), as a column;
  * `sums32`, `sums64` — per node, the sum over its incoming edges of the source node's feature row;
  * `pairs`        — per pair, the feature rows of its two nodes side by side.
-/
import proofs.«179705_j7584912245133_2_alg».proof.KernelIdeal
import proofs.«179705_j7584912245133_2_alg».proof.Proof.Gen.KernelIdeal

noncomputable section

namespace Cert.KernelIdeal.Glue

open Idealize.ShloMosaic Cert.KernelIdeal Cert.KernelIdeal.Gen

variable {F : FTy → Type} [FloatOps F]

/-- The source node of every edge. -/
def src (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge. -/
def dst (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- Edge-indexed node indices as a column of gather indices: a negative index counts from the end. -/
def wrap (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The same for pair-indexed node indices. -/
def wrapP (s : (⟨S1000000, .i32⟩ : BufTy).Contents (Elt F)) : (⟨S1000000x1, .i32⟩ : BufTy).Contents (Elt F) :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

/-- Per node, the larger of its number of incoming edges and one, before it is laid out as a column. -/
def cntFlat (e : (⟨S2x3200000, .i32⟩ : BufTy).Contents (Elt F)) : (⟨S100000, .f32⟩ : BufTy).Contents (Elt F) :=
  maximumf
    (Host.scatterAdd scatter_S100000_S3200000x1_S3200000_n_0_0_1
      (broadcastInDim S100000 ![] bcast_S_S100000 (constant S_ .f32 0x00000000#32))
      (broadcastInDim S3200000x1 ![0] bcast_S3200000_S3200000x1_0 (dst e))
      (broadcastInDim S3200000 ![] bcast_S_S3200000 (constant S_ .f32 0x3F800000#32)))
    (broadcastInDim S100000 ![] bcast_S_S100000 (constant S_ .f32 0x3F800000#32))

/-- The same as the column the layers divide by. -/
def cnt (e : (⟨S2x3200000, .i32⟩ : BufTy).Contents (Elt F)) : (⟨S100000x1, .f32⟩ : BufTy).Contents (Elt F) :=
  shapeCast _ (cntFlat e) shapeCasts_S100000_S100000x1

/-- Per node, the sum over its incoming edges of the source node's row of `x` (32 features). -/
def sums32 (x : (⟨S100000x32, .f32⟩ : BufTy).Contents (Elt F)) (e : (⟨S2x3200000, .i32⟩ : BufTy).Contents (Elt F)) :
    (⟨S100000x32, .f32⟩ : BufTy).Contents (Elt F) :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 (dst e))
    (Host.gather gather_S100000x32_S3200000x1_S3200000x32_1_0_n_n_0_1_132 x (wrap (src e)))

/-- Per node, the sum over its incoming edges of the source node's row of `h` (64 features). -/
def sums64 (h : (⟨S100000x64, .f32⟩ : BufTy).Contents (Elt F)) (e : (⟨S2x3200000, .i32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 (dst e))
    (Host.gather gather_S100000x64_S3200000x1_S3200000x64_1_0_n_n_0_1_164 h (wrap (src e)))

/-- The first node of every pair. -/
def fstOf (p : (⟨S1000000x2, .i32⟩ : BufTy).Contents (Elt F)) : (⟨S1000000, .i32⟩ : BufTy).Contents (Elt F) :=
  shapeCast _ (extractStridedSlice S1000000x1 ![0, 0] p slices_S1000000x2_S1000000x1_0_0) shapeCasts_S1000000x1_S1000000

/-- The second node of every pair. -/
def sndOf (p : (⟨S1000000x2, .i32⟩ : BufTy).Contents (Elt F)) : (⟨S1000000, .i32⟩ : BufTy).Contents (Elt F) :=
  shapeCast _ (extractStridedSlice S1000000x1 ![0, 1] p slices_S1000000x2_S1000000x1_0_1) shapeCasts_S1000000x1_S1000000

/-- Per pair, the rows of `h` of its two nodes side by side (128 features). -/
def pairs (h : (⟨S100000x64, .f32⟩ : BufTy).Contents (Elt F)) (p : (⟨S1000000x2, .i32⟩ : BufTy).Contents (Elt F)) :
    (⟨S1000000x128, .f32⟩ : BufTy).Contents (Elt F) :=
  concatenate S1000000x128 1
    [⟨S1000000x64, Host.gather gather_S100000x64_S1000000x1_S1000000x64_1_0_n_n_0_1_164 h (wrapP (fstOf p))⟩,
     ⟨S1000000x64, Host.gather gather_S100000x64_S1000000x1_S1000000x64_1_0_n_n_0_1_164 h (wrapP (sndOf p))⟩]
    concatenates_S1000000x64_S1000000x64_S1000000x128_d1

end Cert.KernelIdeal.Glue

end
-- ==== Proof.KernelFold.lean ====
/-
  The kernel program's buffer contents at the boundaries that matter, read off the fold through @main.

  Each region's input arrays on entry are the shared host chains of `HostGlue` applied to the arguments and to the
  previous region's output array; a buffer no later segment writes keeps its contents (the divisor column is computed
  once before the first region and read again by the second); the program's result is the last region's output
  column reshaped to a vector.
-/
import proofs.«179705_j7584912245133_2_alg».proof.Proof.Gen.KernelIdeal.Frame
import proofs.«179705_j7584912245133_2_alg».proof.Proof.HostGlue
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first layer's output array. -/
abbrev h1 (c : Dev nD) : (⟨S100000x64, .f32⟩ : BufTy).Contents (Elt F) := (dat0 (V1 m ρ) c).arrAt 6 cfg0.N
/-- The second layer's output array. -/
abbrev h2 (c : Dev nD) : (⟨S100000x64, .f32⟩ : BufTy).Contents (Elt F) := (dat1 (V3 m ρ) c).arrAt 6 cfg1.N
/-- The pair head's output column. -/
abbrev logits (c : Dev nD) : (⟨S1000000x1, .f32⟩ : BufTy).Contents (Elt F) := (dat2 (V5 m ρ) c).arrAt 3 cfg2.N

/-! ## Reading a stretch of host operations at one buffer -/

/-- A buffer that none of a stretch's operations writes is left as it was. -/
local macro "host_keeps " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

/-! ## The first stretch: the edge list's two rows, and the arguments it leaves alone -/

theorem W1_src (c : Dev nD) : W1 m ρ c (Proc.devRef .tc main_v1) = Glue.src (m ((c : Thread nD τ).loc main_arg1)) := by
  show StableHlo.after hostOps0 _ (Proc.devRef .tc main_v1) = _
  after_results_simp
  rfl
theorem W1_dst (c : Dev nD) : W1 m ρ c (Proc.devRef .tc main_v3) = Glue.dst (m ((c : Thread nD τ).loc main_arg1)) := by
  show StableHlo.after hostOps0 _ (Proc.devRef .tc main_v3) = _
  after_results_simp
  rfl

theorem W1_arg0 (c : Dev nD) : W1 m ρ c (Proc.devRef .tc main_arg0) = m ((c : Thread nD τ).loc main_arg0) :=
  (show _ = W0 m ρ c (Proc.devRef .tc main_arg0) by host_keeps hostOps0).trans rfl
theorem W1_arg2 (c : Dev nD) : W1 m ρ c (Proc.devRef .tc main_arg2) = m ((c : Thread nD τ).loc main_arg2) :=
  (show _ = W0 m ρ c (Proc.devRef .tc main_arg2) by host_keeps hostOps0).trans rfl
theorem W1_arg3 (c : Dev nD) : W1 m ρ c (Proc.devRef .tc main_arg3) = m ((c : Thread nD τ).loc main_arg3) :=
  (show _ = W0 m ρ c (Proc.devRef .tc main_arg3) by host_keeps hostOps0).trans rfl
theorem W1_arg5 (c : Dev nD) : W1 m ρ c (Proc.devRef .tc main_arg5) = m ((c : Thread nD τ).loc main_arg5) :=
  (show _ = W0 m ρ c (Proc.devRef .tc main_arg5) by host_keeps hostOps0).trans rfl
theorem W1_arg6 (c : Dev nD) : W1 m ρ c (Proc.devRef .tc main_arg6) = m ((c : Thread nD τ).loc main_arg6) :=
  (show _ = W0 m ρ c (Proc.devRef .tc main_arg6) by host_keeps hostOps0).trans rfl
theorem W1_arg7 (c : Dev nD) : W1 m ρ c (Proc.devRef .tc main_arg7) = m ((c : Thread nD τ).loc main_arg7) :=
  (show _ = W0 m ρ c (Proc.devRef .tc main_arg7) by host_keeps hostOps0).trans rfl
theorem W1_arg8 (c : Dev nD) : W1 m ρ c (Proc.devRef .tc main_arg8) = m ((c : Thread nD τ).loc main_arg8) :=
  (show _ = W0 m ρ c (Proc.devRef .tc main_arg8) by host_keeps hostOps0).trans rfl
theorem W1_arg9 (c : Dev nD) : W1 m ρ c (Proc.devRef .tc main_arg9) = m ((c : Thread nD τ).loc main_arg9) :=
  (show _ = W0 m ρ c (Proc.devRef .tc main_arg9) by host_keeps hostOps0).trans rfl
theorem W1_arg10 (c : Dev nD) : W1 m ρ c (Proc.devRef .tc main_arg10) = m ((c : Thread nD τ).loc main_arg10) :=
  (show _ = W0 m ρ c (Proc.devRef .tc main_arg10) by host_keeps hostOps0).trans rfl

/-! ## On entry to the first layer's region -/

theorem in0_sums (c : Dev nD) : V1 m ρ c main_v20
    = Glue.sums32 (m ((c : Thread nD τ).loc main_arg0)) (m ((c : Thread nD τ).loc main_arg1)) := by
  show StableHlo.after hostOps0 _ (Proc.devRef .tc main_v20) = _
  after_results_simp
  rfl
theorem in0_cnt (c : Dev nD) : V1 m ρ c main_v10 = Glue.cnt (m ((c : Thread nD τ).loc main_arg1)) := by
  show StableHlo.after hostOps0 _ (Proc.devRef .tc main_v10) = _
  after_results_simp
  rfl
theorem in0_x (c : Dev nD) : V1 m ρ c main_arg0 = m ((c : Thread nD τ).loc main_arg0) := W1_arg0 m ρ c
theorem in0_wl (c : Dev nD) : V1 m ρ c main_arg3 = m ((c : Thread nD τ).loc main_arg3) := W1_arg3 m ρ c
theorem in0_bl (c : Dev nD) : V1 m ρ c main_v21
    = shapeCast _ (m ((c : Thread nD τ).loc main_arg4)) shapeCasts_S64_S1x64 := by
  show StableHlo.after hostOps0 _ (Proc.devRef .tc main_v21) = _
  after_results_simp
  rfl
theorem in0_wr (c : Dev nD) : V1 m ρ c main_arg5 = m ((c : Thread nD τ).loc main_arg5) := W1_arg5 m ρ c

/-! ## Across the first layer's region: its output array is new, its input arrays and every other buffer are as entered -/

theorem W2_h1 (c : Dev nD) : W2 m ρ c (Proc.devRef .tc main_v22) = h1 m ρ c := W2_arr m ρ c 6
theorem W2_cnt (c : Dev nD) : W2 m ρ c (Proc.devRef .tc main_v10) = Glue.cnt (m ((c : Thread nD τ).loc main_arg1)) :=
  ((W2_arr m ρ c 1).trans (((dat0 (V1 m ρ) c).arrAt_in 1 rfl _).trans (A_eq0 (V1 m ρ) c 1))).trans (in0_cnt m ρ c)
theorem W2_src (c : Dev nD) : W2 m ρ c (Proc.devRef .tc main_v1) = Glue.src (m ((c : Thread nD τ).loc main_arg1)) :=
  (W2_of_ne m ρ c main_v1 (by decide)).trans (W1_src m ρ c)
theorem W2_dst (c : Dev nD) : W2 m ρ c (Proc.devRef .tc main_v3) = Glue.dst (m ((c : Thread nD τ).loc main_arg1)) :=
  (W2_of_ne m ρ c main_v3 (by decide)).trans (W1_dst m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## On entry to the second layer's region -/

theorem in1_sums (c : Dev nD) : V3 m ρ c main_v32 = Glue.sums64 (h1 m ρ c) (m ((c : Thread nD τ).loc main_arg1)) := by
  show StableHlo.after hostOps1 (W2 m ρ c) (Proc.devRef .tc main_v32) = _
  after_results_simp
  rw [W2_src, W2_dst, W2_h1]
  rfl
theorem in1_cnt (c : Dev nD) : V3 m ρ c main_v10 = Glue.cnt (m ((c : Thread nD τ).loc main_arg1)) :=
  (show _ = W2 m ρ c (Proc.devRef .tc main_v10) by host_keeps hostOps1).trans (W2_cnt m ρ c)
theorem in1_x (c : Dev nD) : V3 m ρ c main_v22 = h1 m ρ c :=
  (show _ = W2 m ρ c (Proc.devRef .tc main_v22) by host_keeps hostOps1).trans (W2_h1 m ρ c)
theorem in1_wl (c : Dev nD) : V3 m ρ c main_arg6 = m ((c : Thread nD τ).loc main_arg6) :=
  (show _ = W2 m ρ c (Proc.devRef .tc main_arg6) by host_keeps hostOps1).trans (W2_arg6 m ρ c)
theorem in1_bl (c : Dev nD) : V3 m ρ c main_v33
    = shapeCast _ (m ((c : Thread nD τ).loc main_arg7)) shapeCasts_S64_S1x64 := by
  show StableHlo.after hostOps1 (W2 m ρ c) (Proc.devRef .tc main_v33) = _
  after_results_simp
  rw [W2_arg7]
  rfl
theorem in1_wr (c : Dev nD) : V3 m ρ c main_arg8 = m ((c : Thread nD τ).loc main_arg8) :=
  (show _ = W2 m ρ c (Proc.devRef .tc main_arg8) by host_keeps hostOps1).trans (W2_arg8 m ρ c)

/-! ## Across the second stretch and the second layer's region -/

theorem W3_arg2 (c : Dev nD) : W3 m ρ c (Proc.devRef .tc main_arg2) = m ((c : Thread nD τ).loc main_arg2) :=
  (show _ = W2 m ρ c (Proc.devRef .tc main_arg2) by host_keeps hostOps1).trans (W2_arg2 m ρ c)
theorem W3_arg9 (c : Dev nD) : W3 m ρ c (Proc.devRef .tc main_arg9) = m ((c : Thread nD τ).loc main_arg9) :=
  (show _ = W2 m ρ c (Proc.devRef .tc main_arg9) by host_keeps hostOps1).trans (W2_arg9 m ρ c)
theorem W3_arg10 (c : Dev nD) : W3 m ρ c (Proc.devRef .tc main_arg10) = m ((c : Thread nD τ).loc main_arg10) :=
  (show _ = W2 m ρ c (Proc.devRef .tc main_arg10) by host_keeps hostOps1).trans (W2_arg10 m ρ c)

theorem W4_h2 (c : Dev nD) : W4 m ρ c (Proc.devRef .tc main_v34) = h2 m ρ c := W4_arr m ρ c 6
theorem W4_arg2 (c : Dev nD) : W4 m ρ c (Proc.devRef .tc main_arg2) = m ((c : Thread nD τ).loc main_arg2) :=
  (W4_of_ne m ρ c main_arg2 (by decide)).trans (W3_arg2 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)

/-! ## On entry to the pair head's region -/

theorem in2_pairs (c : Dev nD) : V5 m ρ c main_v53 = Glue.pairs (h2 m ρ c) (m ((c : Thread nD τ).loc main_arg2)) := by
  show StableHlo.after hostOps2 (W4 m ρ c) (Proc.devRef .tc main_v53) = _
  after_results_simp
  unfold Glue.pairs
  refine congrArg₂ (fun a b : (⟨S1000000x64, .f32⟩ : BufTy).Contents (Elt F) =>
    concatenate S1000000x128 1 [⟨S1000000x64, a⟩, ⟨S1000000x64, b⟩] concatenates_S1000000x64_S1000000x64_S1000000x128_d1) ?_ ?_
  · after_results_simp
    rw [W4_arg2, W4_h2]
    rfl
  · after_results_simp
    rw [W4_arg2, W4_h2]
    rfl
theorem in2_wh (c : Dev nD) : V5 m ρ c main_arg9 = m ((c : Thread nD τ).loc main_arg9) :=
  (show _ = W4 m ρ c (Proc.devRef .tc main_arg9) by host_keeps hostOps2).trans (W4_arg9 m ρ c)
theorem in2_bh (c : Dev nD) : V5 m ρ c main_v54
    = shapeCast _ (m ((c : Thread nD τ).loc main_arg10)) shapeCasts_S1_S1x1 := by
  show StableHlo.after hostOps2 (W4 m ρ c) (Proc.devRef .tc main_v54) = _
  after_results_simp
  rw [W4_arg10]
  rfl

/-! ## The result -/

theorem out_eq (c : Dev nD) : W7 m ρ c (Proc.devRef .tc main_v56)
    = shapeCast _ (logits m ρ c) shapeCasts_S1000000x1_S1000000 := by
  show StableHlo.after hostOps3 (W6 m ρ c) (Proc.devRef .tc main_v56) = _
  after_results_simp
  rw [show W6 m ρ c (Proc.devRef .tc main_v55) = logits m ρ c from W6_arr m ρ c 3]
  rfl

end Cert.KernelIdeal.Whole

end
-- ==== Proof.Spec.lean ====
/-
  The mathematics of the three dense stages, stated once over literal shapes and independent of either program.

  One mean-aggregating graph layer on `K` input features, at node `r` and output feature `j`:

      max( ( Σ_k (S r k / C r) · Wl k j  +  B j )  +  Σ_k X r k · Wr k j , 0 )

  where `S` holds the per-node sums of the neighbours' features, `C` the per-node divisor (held as a column),
  `X` the node's own features, `Wl`, `Wr` the two weight matrices and `B` the bias (held as a row). The additions
  are grouped as written: no law that would need finite operands is used to regroup them.
  The pair head at pair `p`:  Σ_k E p k · Wh k 0  +  b 0 0.
-/
import Idealize.ShloMosaic.PureOps.Ideal
import Idealize.ShloMosaic.Lib.ValueIdx

noncomputable section

namespace Cert.Sage

open Idealize.ShloMosaic Idealize.ShloMosaic.ValueIdx

abbrev N32 : Shape := ⟨2, ![100000, 32]⟩
abbrev N64 : Shape := ⟨2, ![100000, 64]⟩
abbrev N1 : Shape := ⟨2, ![100000, 1]⟩
abbrev W32 : Shape := ⟨2, ![32, 64]⟩
abbrev W64 : Shape := ⟨2, ![64, 64]⟩
abbrev R64 : Shape := ⟨2, ![1, 64]⟩
abbrev P128 : Shape := ⟨2, ![1000000, 128]⟩
abbrev P1 : Shape := ⟨2, ![1000000, 1]⟩
abbrev H128 : Shape := ⟨2, ![128, 1]⟩
abbrev O1 : Shape := ⟨2, ![1, 1]⟩

/-- The first layer (32 input features) at node `r`, output feature `j`. -/
def layer32At (S : N32.Idx → EReal) (C : N1.Idx → EReal) (X : N32.Idx → EReal) (Wl : W32.Idx → EReal)
    (B : R64.Idx → EReal) (Wr : W32.Idx → EReal) (r : Fin 100000) (j : Fin 64) : EReal :=
  max (((∑ k : Fin 32, Ideal.div (S (ix2 r k)) (C (ix2 r (0 : Fin 1))) * Wl (ix2 k j)) + B (ix2 (0 : Fin 1) j))
      + ∑ k : Fin 32, X (ix2 r k) * Wr (ix2 k j)) (Ideal.ofBits .f32 0x00000000#32)

/-- The first layer as one array. -/
def layer32 (S : N32.Idx → EReal) (C : N1.Idx → EReal) (X : N32.Idx → EReal) (Wl : W32.Idx → EReal)
    (B : R64.Idx → EReal) (Wr : W32.Idx → EReal) : N64.Idx → EReal :=
  fun i => layer32At S C X Wl B Wr ⟨(i 0).val, (i 0).isLt⟩ ⟨(i 1).val, (i 1).isLt⟩

theorem layer32_ix2 (S : N32.Idx → EReal) (C : N1.Idx → EReal) (X : N32.Idx → EReal) (Wl : W32.Idx → EReal)
    (B : R64.Idx → EReal) (Wr : W32.Idx → EReal) (r : Fin 100000) (j : Fin 64) :
    layer32 S C X Wl B Wr (ix2 r j) = layer32At S C X Wl B Wr r j := rfl

/-- The second layer (64 input features) at node `r`, output feature `j`. -/
def layer64At (S : N64.Idx → EReal) (C : N1.Idx → EReal) (X : N64.Idx → EReal) (Wl : W64.Idx → EReal)
    (B : R64.Idx → EReal) (Wr : W64.Idx → EReal) (r : Fin 100000) (j : Fin 64) : EReal :=
  max (((∑ k : Fin 64, Ideal.div (S (ix2 r k)) (C (ix2 r (0 : Fin 1))) * Wl (ix2 k j)) + B (ix2 (0 : Fin 1) j))
      + ∑ k : Fin 64, X (ix2 r k) * Wr (ix2 k j)) (Ideal.ofBits .f32 0x00000000#32)

/-- The second layer as one array. -/
def layer64 (S : N64.Idx → EReal) (C : N1.Idx → EReal) (X : N64.Idx → EReal) (Wl : W64.Idx → EReal)
    (B : R64.Idx → EReal) (Wr : W64.Idx → EReal) : N64.Idx → EReal :=
  fun i => layer64At S C X Wl B Wr ⟨(i 0).val, (i 0).isLt⟩ ⟨(i 1).val, (i 1).isLt⟩

theorem layer64_ix2 (S : N64.Idx → EReal) (C : N1.Idx → EReal) (X : N64.Idx → EReal) (Wl : W64.Idx → EReal)
    (B : R64.Idx → EReal) (Wr : W64.Idx → EReal) (r : Fin 100000) (j : Fin 64) :
    layer64 S C X Wl B Wr (ix2 r j) = layer64At S C X Wl B Wr r j := rfl

/-- The pair head at pair `p` (its one output column `q`). -/
def headAt (E : P128.Idx → EReal) (Wh : H128.Idx → EReal) (b : O1.Idx → EReal) (p : Fin 1000000) (q : Fin 1) : EReal :=
  (∑ k : Fin 128, E (ix2 p k) * Wh (ix2 k q)) + b (ix2 (0 : Fin 1) (0 : Fin 1))

/-- The pair head as one array. -/
def head (E : P128.Idx → EReal) (Wh : H128.Idx → EReal) (b : O1.Idx → EReal) : P1.Idx → EReal :=
  fun i => headAt E Wh b ⟨(i 0).val, (i 0).isLt⟩ ⟨(i 1).val, (i 1).isLt⟩

theorem head_ix2 (E : P128.Idx → EReal) (Wh : H128.Idx → EReal) (b : O1.Idx → EReal) (p : Fin 1000000) (q : Fin 1) :
    head E Wh b (ix2 p q) = headAt E Wh b p q := rfl

end Cert.Sage

end
-- ==== Proof.Layer1Pay.lean ====
/-
  What the first dense layer's body stores, read at an index.

  At a block's row `p` and output feature `j` the body stores
      max( (Σ_k (S p k / C p) · Wl k j + B j) + Σ_k X p k · Wr k j , 0 )
  of the block's rows of the neighbour sums `S`, the divisor column `C` and the node features `X` and of the whole weight
  matrices and bias row: each of the two matrix products into a zero accumulator is the plain sum over the 32 input
  features, the divisor column and the bias row are broadcasts read at their one column / one row, and narrowing a
  float format changes no value at the extended reals. The additions stay grouped as the body groups them.
-/
import proofs.«179705_j7584912245133_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

/-! ## The matrix product of a block at an index -/

theorem lhs0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl
theorem lhs1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- A block's product with a weight matrix, into a zero accumulator, at row `p` and column `j`: the sum over the 32
    input features of the row's entry times the matrix's. -/
theorem matmul_at (l : FVec Ideal S5000x32 .bf16) (r : FVec Ideal S32x64 .bf16) (p : Fin 5000) (j : Fin 64) :
    matmul dot_S5000x32_S32x64_S5000x64_1_0_0_1_n_n none l r (constant S5000x64 .f32 0x00000000#32) (ix2 p j)
      = ∑ k : Fin 32, l (ix2 p k) * r (ix2 k j) := by
  show FloatOps.matmul dot_S5000x32_S32x64_S5000x64_1_0_0_1_n_n none l r (constant S5000x64 .f32 0x00000000#32) (ix2 p j) = _
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p j) ((contrEquiv1 dot_S5000x32_S32x64_S5000x64_1_0_0_1_n_n 32 rfl rfl).symm k) = ix2 p k :=
    funext fun a => Fin.ext (by
      match a with
      | ⟨0, _⟩ => exact lhs0 _ _
      | ⟨1, _⟩ => exact (lhs1 _ _).trans hk)
  have er : dot_S5000x32_S32x64_S5000x64_1_0_0_1_n_n.rhsIdx (ix2 p j) ((contrEquiv1 dot_S5000x32_S32x64_S5000x64_1_0_0_1_n_n 32 rfl rfl).symm k) = ix2 k j :=
    funext fun a => Fin.ext (by
      match a with
      | ⟨0, _⟩ => exact (rhs0 _ _).trans hk
      | ⟨1, _⟩ => exact rhs1 _ _)
  rw [el, er]

/-! ## The two broadcasts at an index -/

/-- The divisor column spread over the 32 feature columns reads, at `(p, k)`, the column's entry of row `p`. -/
theorem col_bcast (v : FVec Ideal S5000x1 .f32) (p : Fin 5000) (k : Fin 32) :
    broadcastTo S5000x32 v broadcasts_S5000x1_S5000x32 (ix2 p k) = v (ix2 p (0 : Fin 1)) := by
  refine broadcastTo_apply v broadcasts_S5000x1_S5000x32 (ix2 p k) (ix2 p (0 : Fin 1)) fun ax => ?_
  match ax with
  | ⟨0, _⟩ => rfl
  | ⟨1, _⟩ => rfl

/-- The bias row spread over the 5000 rows reads, at `(p, j)`, the row's entry of column `j`. -/
theorem row_bcast (v : FVec Ideal S1x64 .f32) (p : Fin 5000) (j : Fin 64) :
    broadcastTo S5000x64 v broadcasts_S1x64_S5000x64 (ix2 p j) = v (ix2 (0 : Fin 1) j) :=
  broadcastTo_1b_ab_apply v broadcasts_S1x64_S5000x64 p j

/-! ## What the body stores, at an index -/

/-- The stored value at a block's row `p` and output feature `j`, from the body's six loads. -/
theorem pay_at (x0 : Vec Ideal S5000x32 .f32) (x1 : Vec Ideal S5000x1 .f32) (x2 : Vec Ideal S5000x32 .f32)
    (x3 : Vec Ideal S32x64 .f32) (x5 : Vec Ideal S32x64 .f32) (x4 : Vec Ideal S1x64 .f32) (p : Fin 5000) (j : Fin 64) :
    k0_pay1 x0 x1 x2 x3 x5 x4 (ix2 p j)
      = max (((∑ k : Fin 32, Ideal.div (x0 (ix2 p k)) (x1 (ix2 p (0 : Fin 1))) * x3 (ix2 k j)) + x4 (ix2 (0 : Fin 1) j))
          + ∑ k : Fin 32, x2 (ix2 p k) * x5 (ix2 k j)) (Ideal.ofBits .f32 0x00000000#32) := by
  unfold k0_pay1
  simp only [shapeCast_self]
  show max ((matmul dot_S5000x32_S32x64_S5000x64_1_0_0_1_n_n none
        (truncf .bf16 (divf x0 (broadcastTo S5000x32 x1 broadcasts_S5000x1_S5000x32)) bitsLt_bf16_f32 : FVec Ideal S5000x32 .bf16)
        (truncf .bf16 x3 bitsLt_bf16_f32 : FVec Ideal S32x64 .bf16) (constant S5000x64 .f32 0x00000000#32) (ix2 p j)
      + broadcastTo S5000x64 x4 broadcasts_S1x64_S5000x64 (ix2 p j))
      + matmul dot_S5000x32_S32x64_S5000x64_1_0_0_1_n_n none
        (truncf .bf16 x2 bitsLt_bf16_f32 : FVec Ideal S5000x32 .bf16)
        (truncf .bf16 x5 bitsLt_bf16_f32 : FVec Ideal S32x64 .bf16) (constant S5000x64 .f32 0x00000000#32) (ix2 p j))
      (Ideal.ofBits .f32 0x00000000#32) = _
  rw [matmul_at, matmul_at, row_bcast]
  refine congrArg₂ max (congrArg₂ (· + ·) (congrArg₂ (· + ·) (Finset.sum_congr rfl fun k _ => ?_) rfl) rfl) rfl
  show Ideal.div (x0 (ix2 p k)) (broadcastTo S5000x32 x1 broadcasts_S5000x1_S5000x32 (ix2 p k)) * x3 (ix2 k j) = _
  rw [col_bcast]

end Cert.KernelIdeal.Layer1

end
-- ==== Proof.Layer1Value.lean ====
/-
  The first dense layer's output array, as ONE function of the arrays the region finds on entry.

  The region walks the 100000 nodes in 20 blocks of 5000 rows; block `t` of a row-blocked array holds its rows
  `5000 t … 5000 t + 4999`, while the weight matrices and the bias row are staged whole at every point. So what point
  `t` writes back — the body's stored value at the block's row `p` and feature `j` — is the whole-array function
  `Cert.Sage.layer32` at row `5000 t + p`; the 20 blocks tile the array, so the array ends holding that function.
-/
import proofs.«179705_j7584912245133_2_alg».proof.Proof.Gen.KernelIdeal.Frame
import proofs.«179705_j7584912245133_2_alg».proof.Proof.Spec
import proofs.«179705_j7584912245133_2_alg».proof.Proof.Layer1Pay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: a row-blocked window is at block row `t`, block column 0; a window
    staged whole is at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `5000 t + p` of the array. -/
def rowOf (t : Fin cfg0.N) (p : Fin 5000) : Fin 100000 :=
  ⟨t.val * 5000 + p.val, by have h : t.val < 20 := lt_of_lt_of_eq t.isLt N_0; have := p.isLt; omega⟩

/-! ## Each input block, read at an index, is the array read at the matching index -/

theorem blk_sums (c : Dev nD) (t : Fin cfg0.N) (p : Fin 5000) (k : Fin 32) :
    (iblk0 V c 0 t : Vec Ideal S5000x32 .f32) (ix2 p k) = (V c main_v20 : S100000x32.Idx → EReal) (ix2 (rowOf t p) k) := by
  obtain ⟨e0, e1, -⟩ := idx_facts t
  unfold iblk0
  rw [View.read_apply]
  show V c main_v20 _ = V c main_v20 _
  refine congrArg (V c main_v20) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 32 + 1 * k.val = k.val; rw [e1]; omega

theorem blk_cnt (c : Dev nD) (t : Fin cfg0.N) (p : Fin 5000) (u : Fin 1) :
    (iblk0 V c 1 t : Vec Ideal S5000x1 .f32) (ix2 p u) = (V c main_v10 : S100000x1.Idx → EReal) (ix2 (rowOf t p) u) := by
  obtain ⟨-, -, e0, e1, -⟩ := idx_facts t
  unfold iblk0
  rw [View.read_apply]
  show V c main_v10 _ = V c main_v10 _
  refine congrArg (V c main_v10) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * u.val = u.val; rw [e1]; omega

theorem blk_x (c : Dev nD) (t : Fin cfg0.N) (p : Fin 5000) (k : Fin 32) :
    (iblk0 V c 2 t : Vec Ideal S5000x32 .f32) (ix2 p k) = (V c main_arg0 : S100000x32.Idx → EReal) (ix2 (rowOf t p) k) := by
  obtain ⟨-, -, -, -, e0, e1, -⟩ := idx_facts t
  unfold iblk0
  rw [View.read_apply]
  show V c main_arg0 _ = V c main_arg0 _
  refine congrArg (V c main_arg0) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 32 + 1 * k.val = k.val; rw [e1]; omega

theorem blk_wl (c : Dev nD) (t : Fin cfg0.N) (k : Fin 32) (j : Fin 64) :
    (iblk0 V c 3 t : Vec Ideal S32x64 .f32) (ix2 k j) = (V c main_arg3 : S32x64.Idx → EReal) (ix2 k j) := by
  obtain ⟨-, -, -, -, -, -, e0, e1, -⟩ := idx_facts t
  unfold iblk0
  rw [View.read_apply]
  show V c main_arg3 _ = V c main_arg3 _
  refine congrArg (V c main_arg3) (funext fun a => Fin.ext ?_)
  match a with
  | ⟨0, _⟩ => show win0_3.index t (0 : Fin 2) * 32 + 1 * k.val = k.val; rw [e0]; omega
  | ⟨1, _⟩ => show win0_3.index t (1 : Fin 2) * 64 + 1 * j.val = j.val; rw [e1]; omega

theorem blk_bl (c : Dev nD) (t : Fin cfg0.N) (u : Fin 1) (j : Fin 64) :
    (iblk0 V c 4 t : Vec Ideal S1x64 .f32) (ix2 u j) = (V c main_v21 : S1x64.Idx → EReal) (ix2 u j) := by
  obtain ⟨-, -, -, -, -, -, -, -, e0, e1, -⟩ := idx_facts t
  unfold iblk0
  rw [View.read_apply]
  show V c main_v21 _ = V c main_v21 _
  refine congrArg (V c main_v21) (funext fun a => Fin.ext ?_)
  match a with
  | ⟨0, _⟩ => show win0_4.index t (0 : Fin 2) * 1 + 1 * u.val = u.val; rw [e0]; omega
  | ⟨1, _⟩ => show win0_4.index t (1 : Fin 2) * 64 + 1 * j.val = j.val; rw [e1]; omega

theorem blk_wr (c : Dev nD) (t : Fin cfg0.N) (k : Fin 32) (j : Fin 64) :
    (iblk0 V c 5 t : Vec Ideal S32x64 .f32) (ix2 k j) = (V c main_arg5 : S32x64.Idx → EReal) (ix2 k j) := by
  obtain ⟨-, -, -, -, -, -, -, -, -, -, e0, e1, -⟩ := idx_facts t
  unfold iblk0
  rw [View.read_apply]
  show V c main_arg5 _ = V c main_arg5 _
  refine congrArg (V c main_arg5) (funext fun a => Fin.ext ?_)
  match a with
  | ⟨0, _⟩ => show win0_5.index t (0 : Fin 2) * 32 + 1 * k.val = k.val; rw [e0]; omega
  | ⟨1, _⟩ => show win0_5.index t (1 : Fin 2) * 64 + 1 * j.val = j.val; rw [e1]; omega

/-- Where the output block's element `(p, j)` sits in the array: row `5000 t + p`, column `j`. -/
theorem emb_out (t : Fin cfg0.N) (p : Fin 5000) (j : Fin 64) :
    ((cfg0.win 6).blk t).view.emb (ix2 p j) = (ix2 (rowOf t p) j : S100000x64.Idx) := by
  obtain ⟨-, -, -, -, -, -, -, -, -, -, -, -, e0, e1⟩ := idx_facts t
  refine funext fun a => Fin.ext ?_
  match a with
  | ⟨0, _⟩ => show win0_6.index t (0 : Fin 2) * 5000 + 1 * p.val = t.val * 5000 + p.val; rw [e0]; omega
  | ⟨1, _⟩ => show win0_6.index t (1 : Fin 2) * 64 + 1 * j.val = j.val; rw [e1]; omega

/-! ## What a point writes back, the cover, the array -/

/-- The whole-array function the output ends holding, of the arrays as the region finds them. -/
abbrev result (c : Dev nD) : S100000x64.Idx → EReal :=
  layer32 (V c main_v20) (V c main_v10) (V c main_arg0) (V c main_arg3) (V c main_v21) (V c main_arg5)

/-- What point `t` writes back is block `t` of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x32) hz, View.ld_unit_zero (S := S5000x1) hz, View.ld_unit_zero (S := S32x64) hz,
    View.ld_unit_zero (S := S1x64) hz]
  funext y
  obtain ⟨p, j, rfl⟩ : ∃ (p : Fin 5000) (j : Fin 64), y = ix2 p j := ⟨y 0, y 1, eq_ix2 y⟩
  show k0_pay1 (F := Ideal) _ _ _ _ _ _ (ix2 p j) = result V c (((cfg0.win 6).blk t).view.emb (ix2 p j))
  rw [pay_at, emb_out, result, layer32_ix2]
  unfold layer32At
  simp only [blk_sums, blk_cnt, blk_x, blk_wl, blk_bl, blk_wr]

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v22).slice (win0_6.rect t)).set ↔ _
  rw [View.set_slice_whole, Rect.mem_set_unit]
  exact Iff.rfl

/-- Every row is in some block: row `r` is in block `r / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0]; show (i 0).val / 5000 * 5000 ≤ (i 0).val ∧ (i 0).val < (i 0).val / 5000 * 5000 + 5000; omega
  | ⟨1, _⟩ =>
    show win0_6.index t (1 : Fin 2) * 64 ≤ (i 1).val ∧ (i 1).val < win0_6.index t (1 : Fin 2) * 64 + 64
    rw [e1]; omega

/-- THE ARRAY after the region: `layer32` of the arrays as the region found them. -/
theorem final (c : Dev nD) : (dat0 V c).arrAt 6 cfg0.N = result V c :=
  (dat0 V c).arrAt_eq_of_cover 6 (result V c) (fun t _ => flushed_eq V c t) cover

end Cert.KernelIdeal.Layer1

end
-- ==== Proof.Layer2Pay.lean ====
/-
  What the second dense layer's body stores, read at an index.

  At a block's row `p` and output feature `j` the body stores
      max( (Σ_k (S p k / C p) · Wl k j + B j) + Σ_k X p k · Wr k j , 0 )
  of the block's rows of the neighbour sums `S`, the divisor column `C` and the node features `X` and of the whole weight
  matrices and bias row: each of the two matrix products into a zero accumulator is the plain sum over the 64 input
  features, the divisor column and the bias row are broadcasts read at their one column / one row, and narrowing a
  float format changes no value at the extended reals. The additions stay grouped as the body groups them.
-/
import proofs.«179705_j7584912245133_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

/-! ## The matrix product of a block at an index -/

theorem lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block's product with a weight matrix, into a zero accumulator, at row `p` and column `j`: the sum over the 64
    input features of the row's entry times the matrix's. -/
theorem matmul_at (l : FVec Ideal S5000x64 .bf16) (r : FVec Ideal S64x64 .bf16) (p : Fin 5000) (j : Fin 64) :
    matmul dot_S5000x64_S64x64_S5000x64_1_0_0_1_n_n none l r (constant S5000x64 .f32 0x00000000#32) (ix2 p j)
      = ∑ k : Fin 64, l (ix2 p k) * r (ix2 k j) := by
  show FloatOps.matmul dot_S5000x64_S64x64_S5000x64_1_0_0_1_n_n none l r (constant S5000x64 .f32 0x00000000#32) (ix2 p j) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k :=
    funext fun a => Fin.ext (by
      match a with
      | ⟨0, _⟩ => exact lhs0 _ _
      | ⟨1, _⟩ => exact (lhs1 _ _).trans hk)
  have er : dot_S5000x64_S64x64_S5000x64_1_0_0_1_n_n.rhsIdx (ix2 p j) ((contrEquiv1 dot_S5000x64_S64x64_S5000x64_1_0_0_1_n_n 64 rfl rfl).symm k) = ix2 k j :=
    funext fun a => Fin.ext (by
      match a with
      | ⟨0, _⟩ => exact (rhs0 _ _).trans hk
      | ⟨1, _⟩ => exact rhs1 _ _)
  rw [el, er]

/-! ## The two broadcasts at an index -/

/-- The divisor column spread over the 64 feature columns reads, at `(p, k)`, the column's entry of row `p`. -/
theorem col_bcast (v : FVec Ideal S5000x1 .f32) (p : Fin 5000) (k : Fin 64) :
    broadcastTo S5000x64 v broadcasts_S5000x1_S5000x64 (ix2 p k) = v (ix2 p (0 : Fin 1)) := by
  refine broadcastTo_apply v broadcasts_S5000x1_S5000x64 (ix2 p k) (ix2 p (0 : Fin 1)) fun ax => ?_
  match ax with
  | ⟨0, _⟩ => rfl
  | ⟨1, _⟩ => rfl

/-- The bias row spread over the 5000 rows reads, at `(p, j)`, the row's entry of column `j`. -/
theorem row_bcast (v : FVec Ideal S1x64 .f32) (p : Fin 5000) (j : Fin 64) :
    broadcastTo S5000x64 v broadcasts_S1x64_S5000x64 (ix2 p j) = v (ix2 (0 : Fin 1) j) :=
  broadcastTo_1b_ab_apply v broadcasts_S1x64_S5000x64 p j

/-! ## What the body stores, at an index -/

/-- The stored value at a block's row `p` and output feature `j`, from the body's six loads. -/
theorem pay_at (x0 : Vec Ideal S5000x64 .f32) (x1 : Vec Ideal S5000x1 .f32) (x2 : Vec Ideal S5000x64 .f32)
    (x3 : Vec Ideal S64x64 .f32) (x5 : Vec Ideal S64x64 .f32) (x4 : Vec Ideal S1x64 .f32) (p : Fin 5000) (j : Fin 64) :
    k1_pay1 x0 x1 x2 x3 x5 x4 (ix2 p j)
      = max (((∑ k : Fin 64, Ideal.div (x0 (ix2 p k)) (x1 (ix2 p (0 : Fin 1))) * x3 (ix2 k j)) + x4 (ix2 (0 : Fin 1) j))
          + ∑ k : Fin 64, x2 (ix2 p k) * x5 (ix2 k j)) (Ideal.ofBits .f32 0x00000000#32) := by
  unfold k1_pay1
  simp only [shapeCast_self]
  show max ((matmul dot_S5000x64_S64x64_S5000x64_1_0_0_1_n_n none
        (truncf .bf16 (divf x0 (broadcastTo S5000x64 x1 broadcasts_S5000x1_S5000x64)) bitsLt_bf16_f32 : FVec Ideal S5000x64 .bf16)
        (truncf .bf16 x3 bitsLt_bf16_f32 : FVec Ideal S64x64 .bf16) (constant S5000x64 .f32 0x00000000#32) (ix2 p j)
      + broadcastTo S5000x64 x4 broadcasts_S1x64_S5000x64 (ix2 p j))
      + matmul dot_S5000x64_S64x64_S5000x64_1_0_0_1_n_n none
        (truncf .bf16 x2 bitsLt_bf16_f32 : FVec Ideal S5000x64 .bf16)
        (truncf .bf16 x5 bitsLt_bf16_f32 : FVec Ideal S64x64 .bf16) (constant S5000x64 .f32 0x00000000#32) (ix2 p j))
      (Ideal.ofBits .f32 0x00000000#32) = _
  rw [matmul_at, matmul_at, row_bcast]
  refine congrArg₂ max (congrArg₂ (· + ·) (congrArg₂ (· + ·) (Finset.sum_congr rfl fun k _ => ?_) rfl) rfl) rfl
  show Ideal.div (x0 (ix2 p k)) (broadcastTo S5000x64 x1 broadcasts_S5000x1_S5000x64 (ix2 p k)) * x3 (ix2 k j) = _
  rw [col_bcast]

end Cert.KernelIdeal.Layer2

end
-- ==== Proof.Layer2Value.lean ====
/-
  The second dense layer's output array, as ONE function of the arrays the region finds on entry.

  The region walks the 100000 nodes in 20 blocks of 5000 rows; block `t` of a row-blocked array holds its rows
  `5000 t … 5000 t + 4999`, while the weight matrices and the bias row are staged whole at every point. So what point
  `t` writes back — the body's stored value at the block's row `p` and feature `j` — is the whole-array function
  `Cert.Sage.layer64` at row `5000 t + p`; the 20 blocks tile the array, so the array ends holding that function.
-/
import proofs.«179705_j7584912245133_2_alg».proof.Proof.Gen.KernelIdeal.Frame
import proofs.«179705_j7584912245133_2_alg».proof.Proof.Spec
import proofs.«179705_j7584912245133_2_alg».proof.Proof.Layer2Pay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: a row-blocked window is at block row `t`, block column 0; a window
    staged whole is at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` is row `5000 t + p` of the array. -/
def rowOf (t : Fin cfg1.N) (p : Fin 5000) : Fin 100000 :=
  ⟨t.val * 5000 + p.val, by have h : t.val < 20 := lt_of_lt_of_eq t.isLt N_1; have := p.isLt; omega⟩

/-! ## Each input block, read at an index, is the array read at the matching index -/

theorem blk_sums (c : Dev nD) (t : Fin cfg1.N) (p : Fin 5000) (k : Fin 64) :
    (iblk1 V c 0 t : Vec Ideal S5000x64 .f32) (ix2 p k) = (V c main_v32 : S100000x64.Idx → EReal) (ix2 (rowOf t p) k) := by
  obtain ⟨e0, e1, -⟩ := idx_facts t
  unfold iblk1
  rw [View.read_apply]
  show V c main_v32 _ = V c main_v32 _
  refine congrArg (V c main_v32) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem blk_cnt (c : Dev nD) (t : Fin cfg1.N) (p : Fin 5000) (u : Fin 1) :
    (iblk1 V c 1 t : Vec Ideal S5000x1 .f32) (ix2 p u) = (V c main_v10 : S100000x1.Idx → EReal) (ix2 (rowOf t p) u) := by
  obtain ⟨-, -, e0, e1, -⟩ := idx_facts t
  unfold iblk1
  rw [View.read_apply]
  show V c main_v10 _ = V c main_v10 _
  refine congrArg (V c main_v10) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * u.val = u.val; rw [e1]; omega

theorem blk_x (c : Dev nD) (t : Fin cfg1.N) (p : Fin 5000) (k : Fin 64) :
    (iblk1 V c 2 t : Vec Ideal S5000x64 .f32) (ix2 p k) = (V c main_v22 : S100000x64.Idx → EReal) (ix2 (rowOf t p) k) := by
  obtain ⟨-, -, -, -, e0, e1, -⟩ := idx_facts t
  unfold iblk1
  rw [View.read_apply]
  show V c main_v22 _ = V c main_v22 _
  refine congrArg (V c main_v22) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 64 + 1 * k.val = k.val; rw [e1]; omega

theorem blk_wl (c : Dev nD) (t : Fin cfg1.N) (k : Fin 64) (j : Fin 64) :
    (iblk1 V c 3 t : Vec Ideal S64x64 .f32) (ix2 k j) = (V c main_arg6 : S64x64.Idx → EReal) (ix2 k j) := by
  obtain ⟨-, -, -, -, -, -, e0, e1, -⟩ := idx_facts t
  unfold iblk1
  rw [View.read_apply]
  show V c main_arg6 _ = V c main_arg6 _
  refine congrArg (V c main_arg6) (funext fun a => Fin.ext ?_)
  match a with
  | ⟨0, _⟩ => show win1_3.index t (0 : Fin 2) * 64 + 1 * k.val = k.val; rw [e0]; omega
  | ⟨1, _⟩ => show win1_3.index t (1 : Fin 2) * 64 + 1 * j.val = j.val; rw [e1]; omega

theorem blk_bl (c : Dev nD) (t : Fin cfg1.N) (u : Fin 1) (j : Fin 64) :
    (iblk1 V c 4 t : Vec Ideal S1x64 .f32) (ix2 u j) = (V c main_v33 : S1x64.Idx → EReal) (ix2 u j) := by
  obtain ⟨-, -, -, -, -, -, -, -, e0, e1, -⟩ := idx_facts t
  unfold iblk1
  rw [View.read_apply]
  show V c main_v33 _ = V c main_v33 _
  refine congrArg (V c main_v33) (funext fun a => Fin.ext ?_)
  match a with
  | ⟨0, _⟩ => show win1_4.index t (0 : Fin 2) * 1 + 1 * u.val = u.val; rw [e0]; omega
  | ⟨1, _⟩ => show win1_4.index t (1 : Fin 2) * 64 + 1 * j.val = j.val; rw [e1]; omega

theorem blk_wr (c : Dev nD) (t : Fin cfg1.N) (k : Fin 64) (j : Fin 64) :
    (iblk1 V c 5 t : Vec Ideal S64x64 .f32) (ix2 k j) = (V c main_arg8 : S64x64.Idx → EReal) (ix2 k j) := by
  obtain ⟨-, -, -, -, -, -, -, -, -, -, e0, e1, -⟩ := idx_facts t
  unfold iblk1
  rw [View.read_apply]
  show V c main_arg8 _ = V c main_arg8 _
  refine congrArg (V c main_arg8) (funext fun a => Fin.ext ?_)
  match a with
  | ⟨0, _⟩ => show win1_5.index t (0 : Fin 2) * 64 + 1 * k.val = k.val; rw [e0]; omega
  | ⟨1, _⟩ => show win1_5.index t (1 : Fin 2) * 64 + 1 * j.val = j.val; rw [e1]; omega

/-- Where the output block's element `(p, j)` sits in the array: row `5000 t + p`, column `j`. -/
theorem emb_out (t : Fin cfg1.N) (p : Fin 5000) (j : Fin 64) :
    ((cfg1.win 6).blk t).view.emb (ix2 p j) = (ix2 (rowOf t p) j : S100000x64.Idx) := by
  obtain ⟨-, -, -, -, -, -, -, -, -, -, -, -, e0, e1⟩ := idx_facts t
  refine funext fun a => Fin.ext ?_
  match a with
  | ⟨0, _⟩ => show win1_6.index t (0 : Fin 2) * 5000 + 1 * p.val = t.val * 5000 + p.val; rw [e0]; omega
  | ⟨1, _⟩ => show win1_6.index t (1 : Fin 2) * 64 + 1 * j.val = j.val; rw [e1]; omega

/-! ## What a point writes back, the cover, the array -/

/-- The whole-array function the output ends holding, of the arrays as the region finds them. -/
abbrev result (c : Dev nD) : S100000x64.Idx → EReal :=
  layer64 (V c main_v32) (V c main_v10) (V c main_v22) (V c main_arg6) (V c main_v33) (V c main_arg8)

/-- What point `t` writes back is block `t` of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  funext y
  obtain ⟨p, j, rfl⟩ : ∃ (p : Fin 5000) (j : Fin 64), y = ix2 p j := ⟨y 0, y 1, eq_ix2 y⟩
  show k1_pay1 (F := Ideal) _ _ _ _ _ _ (ix2 p j) = result V c (((cfg1.win 6).blk t).view.emb (ix2 p j))
  rw [pay_at, emb_out, result, layer64_ix2]
  unfold layer64At
  simp only [blk_sums, blk_cnt, blk_x, blk_wl, blk_bl, blk_wr]

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v34).slice (win1_6.rect t)).set ↔ _
  rw [View.set_slice_whole, Rect.mem_set_unit]
  exact Iff.rfl

/-- Every row is in some block: row `r` is in block `r / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0]; show (i 0).val / 5000 * 5000 ≤ (i 0).val ∧ (i 0).val < (i 0).val / 5000 * 5000 + 5000; omega
  | ⟨1, _⟩ =>
    show win1_6.index t (1 : Fin 2) * 64 ≤ (i 1).val ∧ (i 1).val < win1_6.index t (1 : Fin 2) * 64 + 64
    rw [e1]; omega

/-- THE ARRAY after the region: `layer64` of the arrays as the region found them. -/
theorem final (c : Dev nD) : (dat1 V c).arrAt 6 cfg1.N = result V c :=
  (dat1 V c).arrAt_eq_of_cover 6 (result V c) (fun t _ => flushed_eq V c t) cover

end Cert.KernelIdeal.Layer2

end
-- ==== Proof.HeadPay.lean ====
/-
  The pair head's stored value at an index.

  The region walks the 1000000 pairs in 100 blocks of 10000 rows. At a block's row `p` (and its one output column `q`)
  the body computes   Σ_k E p k · Wh k q  +  b 0 0   from the block's rows of the pair embeddings `E`, the whole
  weight column `Wh` and the one-entry bias `b`: the matrix product into a zero accumulator is a plain sum over the
  128 embedding features, the bias is a one-entry array broadcast over every row and read at its one entry, and
  narrowing a float format changes no value.
-/
import proofs.«179705_j7584912245133_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen

/-! ## The matrix product of a block at an index -/

theorem lhs0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide),
    dif_pos (show (0 : Fin S10000x128.rank) ∈ dot_S10000x128_S128x1_S10000x1_1_0_0_1_n_n.lhsNonContracting by decide)]
  rfl
theorem lhs1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem rhs0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem rhs1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide),
    dif_pos (show (1 : Fin S128x1.rank) ∈ dot_S10000x128_S128x1_S10000x1_1_0_0_1_n_n.rhsNonContracting by decide)]
  rfl

/-- A block's product with the weight column, into a zero accumulator, at row `p` and column `q`: the sum over the
    128 embedding features of the row's entry times the column's. -/
theorem matmul_at (l : FVec Ideal S10000x128 .bf16) (r : FVec Ideal S128x1 .bf16) (p : Fin 10000) (q : Fin 1) :
    matmul dot_S10000x128_S128x1_S10000x1_1_0_0_1_n_n none l r (constant S10000x1 .f32 0x00000000#32) (ix2 p q)
      = ∑ k : Fin 128, l (ix2 p k) * r (ix2 k q) := by
  show FloatOps.matmul dot_S10000x128_S128x1_S10000x1_1_0_0_1_n_n none l r (constant S10000x1 .f32 0x00000000#32) (ix2 p q) = _
  rw [Ideal.matmul_constant_zero_apply, ← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p q) ((contrEquiv1 dot_S10000x128_S128x1_S10000x1_1_0_0_1_n_n 128 rfl rfl).symm k) = ix2 p k :=
    funext fun a => Fin.ext (by
      match a with
      | ⟨0, _⟩ => exact lhs0 _ _
      | ⟨1, _⟩ => exact (lhs1 _ _).trans hk)
  have er : dot_S10000x128_S128x1_S10000x1_1_0_0_1_n_n.rhsIdx (ix2 p q) ((contrEquiv1 dot_S10000x128_S128x1_S10000x1_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-! ## The bias broadcast at an index -/

/-- The one-entry bias spread over the 10000 rows reads, at `(p, q)`, its one entry: both of its axes have extent 1,
    so both coordinates of the read are 0. -/
theorem bias_bcast (v : FVec Ideal S1x1 .f32) (p : Fin 10000) (q : Fin 1) :
    broadcastTo S10000x1 v broadcasts_S1x1_S10000x1 (ix2 p q) = v (ix2 (0 : Fin 1) (0 : Fin 1)) := by
  refine broadcastTo_apply v broadcasts_S1x1_S10000x1 (ix2 p q) (ix2 (0 : Fin 1) (0 : Fin 1)) fun ax => ?_
  match ax with
  | ⟨0, _⟩ => rfl
  | ⟨1, _⟩ => rfl

/-! ## What the body stores, at an index -/

/-- The stored value at a block's row `p` and its one output column `q`, from the body's three loads. -/
theorem pay_at (x0 : Vec Ideal S10000x128 .f32) (x1 : Vec Ideal S128x1 .f32) (x2 : Vec Ideal S1x1 .f32)
    (p : Fin 10000) (q : Fin 1) :
    k2_pay1 x0 x1 x2 (ix2 p q)
      = (∑ k : Fin 128, x0 (ix2 p k) * x1 (ix2 k q)) + x2 (ix2 (0 : Fin 1) (0 : Fin 1)) := by
  unfold k2_pay1
  simp only [shapeCast_self]
  show matmul dot_S10000x128_S128x1_S10000x1_1_0_0_1_n_n none
        (truncf .bf16 x0 bitsLt_bf16_f32 : FVec Ideal S10000x128 .bf16)
        (truncf .bf16 x1 bitsLt_bf16_f32 : FVec Ideal S128x1 .bf16) (constant S10000x1 .f32 0x00000000#32) (ix2 p q)
      + broadcastTo S10000x1 x2 broadcasts_S1x1_S10000x1 (ix2 p q) = _
  rw [matmul_at, bias_bcast]
  rfl

end Cert.KernelIdeal.Head

end
-- ==== Proof.HeadValue.lean ====
/-
  The pair head's output array, as ONE function of the arrays the region finds on entry.

  The region walks the 1000000 pairs in 100 blocks of 10000 rows; block `t` of a row-blocked array holds its rows
  `10000 t … 10000 t + 9999`, while the weight column and the one-entry bias are staged whole at every point. So what
  point `t` writes back — the body's stored value at the block's row `p` and its one column `q` — is the whole-array
  function `Cert.Sage.head` at row `10000 t + p`; the 100 blocks tile the array, so the array ends holding that function.
-/
import proofs.«179705_j7584912245133_2_alg».proof.Proof.Gen.KernelIdeal.Frame
import proofs.«179705_j7584912245133_2_alg».proof.Proof.Spec
import proofs.«179705_j7584912245133_2_alg».proof.Proof.HeadPay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 100 points: a row-blocked window is at block row `t`, block column 0; a window
    staged whole is at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is row `10000 t + p` of the array. -/
def rowOf (t : Fin cfg2.N) (p : Fin 10000) : Fin 1000000 :=
  ⟨t.val * 10000 + p.val, by have h : t.val < 100 := lt_of_lt_of_eq t.isLt N_2; have := p.isLt; omega⟩

/-! ## Each input block, read at an index, is the array read at the matching index -/

theorem blk_e (c : Dev nD) (t : Fin cfg2.N) (p : Fin 10000) (k : Fin 128) :
    (iblk2 V c 0 t : Vec Ideal S10000x128 .f32) (ix2 p k) = (V c main_v53 : S1000000x128.Idx → EReal) (ix2 (rowOf t p) k) := by
  obtain ⟨e0, e1, -⟩ := idx_facts t
  unfold iblk2
  rw [View.read_apply]
  show V c main_v53 _ = V c main_v53 _
  refine congrArg (V c main_v53) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 128 + 1 * k.val = k.val; rw [e1]; omega

theorem blk_wh (c : Dev nD) (t : Fin cfg2.N) (k : Fin 128) (q : Fin 1) :
    (iblk2 V c 1 t : Vec Ideal S128x1 .f32) (ix2 k q) = (V c main_arg9 : S128x1.Idx → EReal) (ix2 k q) := by
  obtain ⟨-, -, e0, e1, -⟩ := idx_facts t
  unfold iblk2
  rw [View.read_apply]
  show V c main_arg9 _ = V c main_arg9 _
  refine congrArg (V c main_arg9) (funext fun a => Fin.ext ?_)
  match a with
  | ⟨0, _⟩ => show win2_1.index t (0 : Fin 2) * 128 + 1 * k.val = k.val; rw [e0]; omega
  | ⟨1, _⟩ => show win2_1.index t (1 : Fin 2) * 1 + 1 * q.val = q.val; rw [e1]; omega

theorem blk_bh (c : Dev nD) (t : Fin cfg2.N) (u : Fin 1) (q : Fin 1) :
    (iblk2 V c 2 t : Vec Ideal S1x1 .f32) (ix2 u q) = (V c main_v54 : S1x1.Idx → EReal) (ix2 u q) := by
  obtain ⟨-, -, -, -, e0, e1, -⟩ := idx_facts t
  unfold iblk2
  rw [View.read_apply]
  show V c main_v54 _ = V c main_v54 _
  refine congrArg (V c main_v54) (funext fun a => Fin.ext ?_)
  match a with
  | ⟨0, _⟩ => show win2_2.index t (0 : Fin 2) * 1 + 1 * u.val = u.val; rw [e0]; omega
  | ⟨1, _⟩ => show win2_2.index t (1 : Fin 2) * 1 + 1 * q.val = q.val; rw [e1]; omega

/-- Where the output block's element `(p, q)` sits in the array: row `10000 t + p`, column `q`. -/
theorem emb_out (t : Fin cfg2.N) (p : Fin 10000) (q : Fin 1) :
    ((cfg2.win 3).blk t).view.emb (ix2 p q) = (ix2 (rowOf t p) q : S1000000x1.Idx) := by
  obtain ⟨-, -, -, -, -, -, e0, e1⟩ := idx_facts t
  refine funext fun a => Fin.ext ?_
  match a with
  | ⟨0, _⟩ => show win2_3.index t (0 : Fin 2) * 10000 + 1 * p.val = t.val * 10000 + p.val; rw [e0]; omega
  | ⟨1, _⟩ => show win2_3.index t (1 : Fin 2) * 1 + 1 * q.val = q.val; rw [e1]; omega

/-! ## What a point writes back, the cover, the array -/

/-- The whole-array function the output ends holding, of the arrays as the region finds them. -/
abbrev result (c : Dev nD) : S1000000x1.Idx → EReal :=
  head (V c main_v53) (V c main_arg9) (V c main_v54)

/-- What point `t` writes back is block `t` of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x1) hz, View.ld_unit_zero (S := S1x1) hz]
  funext y
  obtain ⟨p, q, rfl⟩ : ∃ (p : Fin 10000) (q : Fin 1), y = ix2 p q := ⟨y 0, y 1, eq_ix2 y⟩
  show k2_pay1 (F := Ideal) _ _ _ (ix2 p q) = result V c (((cfg2.win 3).blk t).view.emb (ix2 p q))
  rw [pay_at, emb_out, result, head_ix2]
  unfold headAt
  simp only [blk_e, blk_wh, blk_bh]

/-- An index of the array is in point `t`'s block iff each coordinate is in the block's range on its axis. -/
theorem mem_blk (t : Fin cfg2.N) (i : S1000000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v55).slice (win2_3.rect t)).set ↔ _
  rw [View.set_slice_whole, Rect.mem_set_unit]
  exact Iff.rfl

/-- Every row is in some block: row `r` is in block `r / 10000`. -/
theorem cover (i : S1000000x1.Idx) :
    ∃ t : Fin cfg2.N, (cfg2.win 3).flush t = true ∧ i ∈ ((cfg2.win 3).blk t).view.set := by
  have hi0 : (i 0).val < 1000000 := (i 0).isLt
  have hi1 : (i 1).val < 1 := (i 1).isLt
  have hN : cfg2.N = 100 := N_2
  let t : Fin cfg2.N := ⟨(i 0).val / 10000, by rw [hN]; omega⟩
  obtain ⟨-, -, -, -, -, -, e0, e1⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    rw [e0]; show (i 0).val / 10000 * 10000 ≤ (i 0).val ∧ (i 0).val < (i 0).val / 10000 * 10000 + 10000; omega
  | ⟨1, _⟩ =>
    show win2_3.index t (1 : Fin 2) * 1 ≤ (i 1).val ∧ (i 1).val < win2_3.index t (1 : Fin 2) * 1 + 1
    rw [e1]; omega

/-- THE ARRAY after the region: `head` of the arrays as the region found them. -/
theorem final (c : Dev nD) :
    (dat2 V c).arrAt 3 cfg2.N = Cert.Sage.head (V c main_v53) (V c main_arg9) (V c main_v54) :=
  (dat2 V c).arrAt_eq_of_cover 3 (result V c) (fun t _ => flushed_eq V c t) cover

end Cert.KernelIdeal.Head

end
-- ==== Proof.WholeSpec.lean ====
/-
  The whole computation, named once as a function of the eleven argument arrays: the first layer of the node
  features and their neighbour sums; the second layer of the first layer's output and ITS neighbour sums, both layers
  dividing by the same per-node count; then, per pair, the pair head of the two nodes' second-layer rows side by side,
  the one output column reshaped to a vector. Both programs are shown to end with their result at this function.
-/
import proofs.«179705_j7584912245133_2_alg».proof.Proof.Spec
import proofs.«179705_j7584912245133_2_alg».proof.Proof.HostGlue

noncomputable section

namespace Cert.Sage

open Idealize.ShloMosaic Cert.KernelIdeal Cert.KernelIdeal.Gen Cert.KernelIdeal.Glue

/-- The first layer's output, of the arguments. -/
def hidden1 (x : (⟨S100000x32, .f32⟩ : BufTy).Contents (Elt Ideal)) (e : (⟨S2x3200000, .i32⟩ : BufTy).Contents (Elt Ideal))
    (wl1 : (⟨S32x64, .f32⟩ : BufTy).Contents (Elt Ideal)) (bl1 : (⟨S64, .f32⟩ : BufTy).Contents (Elt Ideal))
    (wr1 : (⟨S32x64, .f32⟩ : BufTy).Contents (Elt Ideal)) : (⟨S100000x64, .f32⟩ : BufTy).Contents (Elt Ideal) :=
  layer32 (sums32 x e) (cnt e) x wl1 (shapeCast _ bl1 shapeCasts_S64_S1x64) wr1

/-- The second layer's output, of the first layer's and the arguments. -/
def hidden2 (h : (⟨S100000x64, .f32⟩ : BufTy).Contents (Elt Ideal)) (e : (⟨S2x3200000, .i32⟩ : BufTy).Contents (Elt Ideal))
    (wl2 : (⟨S64x64, .f32⟩ : BufTy).Contents (Elt Ideal)) (bl2 : (⟨S64, .f32⟩ : BufTy).Contents (Elt Ideal))
    (wr2 : (⟨S64x64, .f32⟩ : BufTy).Contents (Elt Ideal)) : (⟨S100000x64, .f32⟩ : BufTy).Contents (Elt Ideal) :=
  layer64 (sums64 h e) (cnt e) h wl2 (shapeCast _ bl2 shapeCasts_S64_S1x64) wr2

/-- The result vector, of the second layer's output and the arguments. -/
def scores (h : (⟨S100000x64, .f32⟩ : BufTy).Contents (Elt Ideal)) (p : (⟨S1000000x2, .i32⟩ : BufTy).Contents (Elt Ideal))
    (wh : (⟨S128x1, .f32⟩ : BufTy).Contents (Elt Ideal)) (bh : (⟨S1, .f32⟩ : BufTy).Contents (Elt Ideal)) :
    (⟨S1000000, .f32⟩ : BufTy).Contents (Elt Ideal) :=
  shapeCast _ (head (pairs h p) wh (shapeCast _ bh shapeCasts_S1_S1x1)) shapeCasts_S1000000x1_S1000000

/-- The whole computation. -/
def whole (x : (⟨S100000x32, .f32⟩ : BufTy).Contents (Elt Ideal)) (e : (⟨S2x3200000, .i32⟩ : BufTy).Contents (Elt Ideal))
    (p : (⟨S1000000x2, .i32⟩ : BufTy).Contents (Elt Ideal))
    (wl1 : (⟨S32x64, .f32⟩ : BufTy).Contents (Elt Ideal)) (bl1 : (⟨S64, .f32⟩ : BufTy).Contents (Elt Ideal))
    (wr1 : (⟨S32x64, .f32⟩ : BufTy).Contents (Elt Ideal))
    (wl2 : (⟨S64x64, .f32⟩ : BufTy).Contents (Elt Ideal)) (bl2 : (⟨S64, .f32⟩ : BufTy).Contents (Elt Ideal))
    (wr2 : (⟨S64x64, .f32⟩ : BufTy).Contents (Elt Ideal))
    (wh : (⟨S128x1, .f32⟩ : BufTy).Contents (Elt Ideal)) (bh : (⟨S1, .f32⟩ : BufTy).Contents (Elt Ideal)) :
    (⟨S1000000, .f32⟩ : BufTy).Contents (Elt Ideal) :=
  scores (hidden2 (hidden1 x e wl1 bl1 wr1) e wl2 bl2 wr2) p wh bh

end Cert.Sage

end
-- ==== Proof.KernelWhole.lean ====
/-
  The idealized kernel program ends with its result at `Cert.Sage.whole` of its arguments.

  Each region's output array is its dense stage's whole-array function of the arrays the region finds on entry
  (`Layer1.final`, `Layer2.final`, `Head.final`, for ANY entry contents); on entry those arrays are the shared graph
  operations applied to the arguments and to the previous region's output (`KernelFold`). Composing the three gives
  the first layer of the arguments, the second layer of the first, and the pair head of the second; the program's
  result is the head's column reshaped to a vector.
-/
import proofs.«179705_j7584912245133_2_alg».proof.Proof.KernelFold
import proofs.«179705_j7584912245133_2_alg».proof.Proof.Layer1Value
import proofs.«179705_j7584912245133_2_alg».proof.Proof.Layer2Value
import proofs.«179705_j7584912245133_2_alg».proof.Proof.HeadValue
import proofs.«179705_j7584912245133_2_alg».proof.Proof.WholeSpec

set_option maxRecDepth 16384

noncomputable section

namespace Cert.KernelIdeal.Whole

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- The first region's output array is the first layer of the arguments. -/
theorem h1_eq (c : Dev nD) : h1 m ρ c = hidden1 (m ((c : Thread nD τ).loc main_arg0)) (m ((c : Thread nD τ).loc main_arg1)) (m ((c : Thread nD τ).loc main_arg3)) (m ((c : Thread nD τ).loc main_arg4)) (m ((c : Thread nD τ).loc main_arg5)) := by
  refine (Layer1.final (V1 m ρ) c).trans ?_
  show layer32 (V1 m ρ c main_v20) (V1 m ρ c main_v10) (V1 m ρ c main_arg0) (V1 m ρ c main_arg3) (V1 m ρ c main_v21)
    (V1 m ρ c main_arg5) = _
  rw [in0_sums, in0_cnt, in0_x, in0_wl, in0_bl, in0_wr]
  rfl

/-- The second region's output array is the second layer of the first region's output and the arguments. -/
theorem h2_eq (c : Dev nD) : h2 m ρ c = hidden2 (h1 m ρ c) (m ((c : Thread nD τ).loc main_arg1)) (m ((c : Thread nD τ).loc main_arg6)) (m ((c : Thread nD τ).loc main_arg7)) (m ((c : Thread nD τ).loc main_arg8)) := by
  refine (Layer2.final (V3 m ρ) c).trans ?_
  show layer64 (V3 m ρ c main_v32) (V3 m ρ c main_v10) (V3 m ρ c main_v22) (V3 m ρ c main_arg6) (V3 m ρ c main_v33)
    (V3 m ρ c main_arg8) = _
  rw [in1_sums, in1_cnt, in1_x, in1_wl, in1_bl, in1_wr]
  rfl

/-- The third region's output column is the pair head of the second region's output and the arguments. -/
theorem logits_eq (c : Dev nD) : logits m ρ c
    = head (Glue.pairs (h2 m ρ c) (m ((c : Thread nD τ).loc main_arg2))) (m ((c : Thread nD τ).loc main_arg9)) (shapeCast _ (m ((c : Thread nD τ).loc main_arg10)) shapeCasts_S1_S1x1) := by
  refine (Head.final (V5 m ρ) c).trans ?_
  show head (V5 m ρ c main_v53) (V5 m ρ c main_arg9) (V5 m ρ c main_v54) = _
  rw [in2_pairs, in2_wh, in2_bh]

/-- THE RESULT at the last boundary: `whole` of the arguments. -/
theorem result_eq (c : Dev nD) : W7 m ρ c (Proc.devRef .tc main_v56)
    = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [out_eq, logits_eq, h2_eq, h1_eq]
  rfl

end Cert.KernelIdeal.Whole

end
-- ==== Proof.LibColumnCast.lean ====
/-
  General lemmas: a vector of length `a` laid out as a column `[a, 1]`, and a column read back as a vector, read at an
  index. A shape cast keeps the row-major position; the row-major position of `(r, u)` in `[a, 1]` is `r · 1 + u` with
  `u = 0`, which is the position of `r` in `[a]`.
-/
import Idealize.ShloMosaic.Lib.Pipeline.Value
import Idealize.ShloMosaic.Lib.ValueIdx

namespace Cert.Lib.ColumnCast

open Idealize.ShloMosaic Idealize.ShloMosaic.ValueIdx

variable {α : Type}

/-- An `[a]` array cast to a column `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

end Cert.Lib.ColumnCast
-- ==== Proof.RefChain.lean ====
/-
  The reference program's two layers, read at an index, are the whole-array functions of `WholeSpec`.

  The reference computes a layer as whole-array host operations: the neighbour sums divided by the per-node count
  (broadcast along the feature axis), a matrix product with the first weight matrix, plus the bias (broadcast along the
  node axis), plus the matrix product of the node features with the second weight matrix, then the larger of that and
  zero. Read at node `r` and feature `j`, each broadcast reads its one source entry, each matrix product is the sum over
  the input features, and the host's quotient is the extended-real quotient — which is `Cert.Sage.layer32At` /
  `layer64At` at `(r, j)` with the additions grouped the same way. The neighbour sums and the count are the same
  gather / scatter-add chains the kernel program applies (`HostGlue`), so they are carried as those names and never
  opened.
-/
import proofs.«179705_j7584912245133_2_alg».proof.Proof.Gen.ReferenceIdeal.Read
import proofs.«179705_j7584912245133_2_alg».proof.Proof.Spec
import proofs.«179705_j7584912245133_2_alg».proof.Proof.HostGlue
import proofs.«179705_j7584912245133_2_alg».proof.Proof.WholeSpec
import proofs.«179705_j7584912245133_2_alg».proof.Proof.LibColumnCast
import Idealize.ShloMosaic.Lib.Pipeline.Value
import Idealize.ShloMosaic.Lib.ValueIdx
import Idealize.ShloMosaic.Lib.ValueLayout

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.ShloMosaic.ValueIdx
open Cert.Sage Cert.Lib.ColumnCast

/-! ## The shared graph operations, by name -/

/-- The first layer's neighbour sums are the shared chain `sums32` of the node features and the edge list. -/
theorem sums1_eq (x0 : (⟨S100000x32, .f32⟩ : BufTy).Contents (Elt Ideal)) (x1 : (⟨S2x3200000, .i32⟩ : BufTy).Contents (Elt Ideal)) :
    val_main_v13 (F := Ideal) x0 x1 = Cert.KernelIdeal.Glue.sums32 x0 x1 := by
  unfold val_main_v13 val_main_v11 val_main_cst val_main_v12 val_main_v3 val_main_v2 val_main_v10 val_main_v9 val_main_v8
    val_main_v5 val_main_v7 val_main_v6 val_main_v4 val_main_c val_main_c_0 val_main_v1 val_main_v0
  unfold Cert.KernelIdeal.Glue.sums32 Cert.KernelIdeal.Glue.dst Cert.KernelIdeal.Glue.src Cert.KernelIdeal.Glue.wrap
  rfl

/-- The per-node count, in the first layer, is the shared chain `cntFlat` of the edge list. -/
theorem cnt1_eq (x1 : (⟨S2x3200000, .i32⟩ : BufTy).Contents (Elt Ideal)) :
    val_main_v19 (F := Ideal) x1 = Cert.KernelIdeal.Glue.cntFlat x1 := by
  unfold val_main_v19 val_main_v17 val_main_v18 val_main_v15 val_main_v16 val_main_v14 val_main_cst_1 val_main_cst_2
    val_main_cst_3 val_main_v3 val_main_v2
  unfold Cert.KernelIdeal.Glue.cntFlat Cert.KernelIdeal.Glue.dst
  rfl

/-! ## The first layer -/

theorem lidx23_eq (r : Fin 100000) (j : Fin 64) (k : Fin 32) : lidx_main_v23 (ix2 r j) k = ix2 r k :=
  funext fun a => Fin.ext (by match a with | ⟨0, _⟩ => rfl | ⟨1, _⟩ => rfl)
theorem ridx23_eq (r : Fin 100000) (j : Fin 64) (k : Fin 32) : ridx_main_v23 (ix2 r j) k = ix2 k j :=
  funext fun a => Fin.ext (by match a with | ⟨0, _⟩ => rfl | ⟨1, _⟩ => rfl)
theorem lidx27_eq (r : Fin 100000) (j : Fin 64) (k : Fin 32) : lidx_main_v27 (ix2 r j) k = ix2 r k :=
  funext fun a => Fin.ext (by match a with | ⟨0, _⟩ => rfl | ⟨1, _⟩ => rfl)
theorem ridx27_eq (r : Fin 100000) (j : Fin 64) (k : Fin 32) : ridx_main_v27 (ix2 r j) k = ix2 k j :=
  funext fun a => Fin.ext (by match a with | ⟨0, _⟩ => rfl | ⟨1, _⟩ => rfl)
/-- The bias, broadcast to a row and then over the nodes, is read at its entry `j`. -/
theorem idx_bl1 (r : Fin 100000) (j : Fin 64) : idx_main_v24 (idx_main_v25 (ix2 r j)) = ix1 j :=
  funext fun a => Fin.ext (by match a with | ⟨0, _⟩ => rfl)
/-- The count, broadcast to a column and then over the features, is read at its entry `r`. -/
theorem idx_cnt1 (r : Fin 100000) (k : Fin 32) : idx_main_v20 (idx_main_v21 (ix2 r k)) = ix1 r :=
  funext fun a => Fin.ext (by match a with | ⟨0, _⟩ => rfl)

/-- The divisor column at row `r` is the flat count at `r`. -/
theorem cnt_read (x1 : (⟨S2x3200000, .i32⟩ : BufTy).Contents (Elt Ideal)) (r : Fin 100000) :
    Cert.KernelIdeal.Glue.cnt x1 (ix2 r (0 : Fin 1)) = Cert.KernelIdeal.Glue.cntFlat x1 (ix1 r) := by
  unfold Cert.KernelIdeal.Glue.cnt
  generalize Cert.KernelIdeal.Glue.cntFlat x1 = y
  exact shapeCast_a_a1_apply y _ r 0

/-- The reference's quotient stage at `(r, k)`: the neighbour sum divided by the flat count of node `r`. -/
theorem div_read (x0 : (⟨S100000x32, .f32⟩ : BufTy).Contents (Elt Ideal)) (x1 : (⟨S2x3200000, .i32⟩ : BufTy).Contents (Elt Ideal))
    (r : Fin 100000) (k : Fin 32) :
    val_main_v22 (F := Ideal) x0 x1 (ix2 r k)
      = Ideal.div (Cert.KernelIdeal.Glue.sums32 x0 x1 (ix2 r k)) (Cert.KernelIdeal.Glue.cntFlat x1 (ix1 r)) := by
  rw [val_main_v22_apply, val_main_v21_apply, val_main_v20_apply, idx_cnt1, sums1_eq, cnt1_eq]
  generalize Cert.KernelIdeal.Glue.sums32 x0 x1 (ix2 r k) = a
  generalize Cert.KernelIdeal.Glue.cntFlat x1 (ix1 r) = b
  rfl

/-- The reference's first layer is `hidden1` of the arguments. -/
theorem layer1_eq (x0 : (⟨S100000x32, .f32⟩ : BufTy).Contents (Elt Ideal)) (x1 : (⟨S2x3200000, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal)) :
    val_main_v29 (F := Ideal) x0 x1 x3 x4 x5 = hidden1 x0 x1 x3 x4 x5 := by
  funext i
  obtain ⟨r, j, rfl⟩ : ∃ (r : Fin 100000) (j : Fin 64), i = ix2 r j := ⟨i 0, i 1, eq_ix2 i⟩
  unfold hidden1
  rw [layer32_ix2]
  unfold layer32At
  rw [val_main_v29_apply, val_main_v28_apply, val_main_v26_apply, val_main_v23_apply, val_main_v27_apply,
    val_main_v25_apply, val_main_v24_apply, val_main_call0_v0_apply, val_main_call0_cst_apply]
  simp only [lidx23_eq, ridx23_eq, lidx27_eq, ridx27_eq, idx_bl1]
  rw [cnt_read, shapeCast_a_1a_apply]
  refine congrArg₂ max (congrArg₂ (· + ·) (congrArg₂ (· + ·) (Finset.sum_congr rfl fun k _ => ?_) rfl) rfl) rfl
  rw [div_read]

end Cert.ReferenceIdeal.Chain

end
-- ==== Proof.RefChain2.lean ====
/-
  The reference program's second layer, read at an index, is the whole-array function `Cert.Sage.hidden2`.

  The reference computes the layer as whole-array host operations on the first layer's output `H`: the neighbour sums
  of `H` divided by the per-node count (the count broadcast to a column and then along the feature axis), a matrix
  product with the first weight matrix, plus the bias (broadcast to a row and then along the node axis), plus the
  matrix product of `H` with the second weight matrix, then the larger of that and zero. Read at node `r` and feature
  `j`, each broadcast reads its one source entry, each matrix product is the sum over the 64 input features, and the
  host's quotient is the extended-real quotient — which is `Cert.Sage.layer64At` at `(r, j)` with the additions grouped
  the same way. The neighbour sums and the count are the same gather / scatter-add chains the kernel program applies
  (`HostGlue`), so they are carried as those names and never opened: every step below either rewrites by an equation
  between names or compares terms that are already the same.
-/
import proofs.«179705_j7584912245133_2_alg».proof.Proof.Gen.ReferenceIdeal.Read
import proofs.«179705_j7584912245133_2_alg».proof.Proof.Spec
import proofs.«179705_j7584912245133_2_alg».proof.Proof.HostGlue
import proofs.«179705_j7584912245133_2_alg».proof.Proof.WholeSpec
import proofs.«179705_j7584912245133_2_alg».proof.Proof.LibColumnCast
import Idealize.ShloMosaic.Lib.Pipeline.Value
import Idealize.ShloMosaic.Lib.ValueIdx
import Idealize.ShloMosaic.Lib.ValueLayout

set_option maxRecDepth 16384

noncomputable section

namespace Cert.ReferenceIdeal.Chain2

open Cert.ReferenceIdeal Cert.ReferenceIdeal.Gen Cert.ReferenceIdeal.Read
open Idealize.ShloMosaic Idealize.ShloMosaic.TcCoe Idealize.ShloMosaic.ValueIdx
open Cert.Sage Cert.Lib.ColumnCast

/-! ## The shared graph operations, by name -/

/-- The second layer's neighbour sums are the shared chain `sums64` of the first layer's output and the edge list:
    the same slices, index shifts, gather and scatter-add, operation for operation. -/
theorem sums2_eq (x0 : (⟨S100000x32, .f32⟩ : BufTy).Contents (Elt Ideal)) (x1 : (⟨S2x3200000, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal)) :
    val_main_v43 (F := Ideal) x0 x1 x3 x4 x5
      = Cert.KernelIdeal.Glue.sums64 (val_main_v29 (F := Ideal) x0 x1 x3 x4 x5) x1 := rfl

/-- The per-node count, recomputed in the second layer, is the shared chain `cntFlat` of the edge list. -/
theorem cnt2_eq (x1 : (⟨S2x3200000, .i32⟩ : BufTy).Contents (Elt Ideal)) :
    val_main_v49 (F := Ideal) x1 = Cert.KernelIdeal.Glue.cntFlat x1 := rfl

/-! ## The index maps at a node and a feature -/

theorem lidx53_eq (r : Fin 100000) (j : Fin 64) (k : Fin 64) : lidx_main_v53 (ix2 r j) k = ix2 r k :=
  funext fun a => Fin.ext (by match a with | ⟨0, _⟩ => rfl | ⟨1, _⟩ => rfl)
theorem ridx53_eq (r : Fin 100000) (j : Fin 64) (k : Fin 64) : ridx_main_v53 (ix2 r j) k = ix2 k j :=
  funext fun a => Fin.ext (by match a with | ⟨0, _⟩ => rfl | ⟨1, _⟩ => rfl)
theorem lidx57_eq (r : Fin 100000) (j : Fin 64) (k : Fin 64) : lidx_main_v57 (ix2 r j) k = ix2 r k :=
  funext fun a => Fin.ext (by match a with | ⟨0, _⟩ => rfl | ⟨1, _⟩ => rfl)
theorem ridx57_eq (r : Fin 100000) (j : Fin 64) (k : Fin 64) : ridx_main_v57 (ix2 r j) k = ix2 k j :=
  funext fun a => Fin.ext (by match a with | ⟨0, _⟩ => rfl | ⟨1, _⟩ => rfl)
/-- The bias, broadcast to a row and then over the nodes, is read at its entry `j`. -/
theorem idx_bl2 (r : Fin 100000) (j : Fin 64) : idx_main_v54 (idx_main_v55 (ix2 r j)) = ix1 j :=
  funext fun a => Fin.ext (by match a with | ⟨0, _⟩ => rfl)
/-- The count, broadcast to a column and then over the features, is read at its entry `r`. -/
theorem idx_cnt2 (r : Fin 100000) (k : Fin 64) : idx_main_v50 (idx_main_v51 (ix2 r k)) = ix1 r :=
  funext fun a => Fin.ext (by match a with | ⟨0, _⟩ => rfl)

/-! ## The divisor and the quotient at an index -/

/-- The divisor column at row `r` is the flat count at `r`: a vector laid out as a column keeps its entries. -/
theorem cnt_read (x1 : (⟨S2x3200000, .i32⟩ : BufTy).Contents (Elt Ideal)) (r : Fin 100000) :
    Cert.KernelIdeal.Glue.cnt x1 (ix2 r (0 : Fin 1)) = Cert.KernelIdeal.Glue.cntFlat x1 (ix1 r) := by
  unfold Cert.KernelIdeal.Glue.cnt
  generalize Cert.KernelIdeal.Glue.cntFlat x1 = y
  exact shapeCast_a_a1_apply y _ r 0

/-- The reference's quotient stage at `(r, k)`: the neighbour sum divided by the flat count of node `r`. -/
theorem quot_read (x0 : (⟨S100000x32, .f32⟩ : BufTy).Contents (Elt Ideal)) (x1 : (⟨S2x3200000, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal)) (r : Fin 100000) (k : Fin 64) :
    val_main_v52 (F := Ideal) x0 x1 x3 x4 x5 (ix2 r k)
      = Ideal.div (Cert.KernelIdeal.Glue.sums64 (val_main_v29 (F := Ideal) x0 x1 x3 x4 x5) x1 (ix2 r k))
          (Cert.KernelIdeal.Glue.cntFlat x1 (ix1 r)) := by
  rw [val_main_v52_apply, val_main_v51_apply, val_main_v50_apply, idx_cnt2, sums2_eq, cnt2_eq]
  generalize Cert.KernelIdeal.Glue.sums64 _ x1 (ix2 r k) = a
  generalize Cert.KernelIdeal.Glue.cntFlat x1 (ix1 r) = b
  rfl

/-! ## The second layer -/

/-- The reference's second layer is `hidden2` of its first layer's output and the arguments. -/
theorem layer2_eq (x0 : (⟨S100000x32, .f32⟩ : BufTy).Contents (Elt Ideal)) (x1 : (⟨S2x3200000, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) :
    val_main_v59 (F := Ideal) x0 x1 x3 x4 x5 x6 x7 x8
      = hidden2 (val_main_v29 (F := Ideal) x0 x1 x3 x4 x5) x1 x6 x7 x8 := by
  funext i
  obtain ⟨r, j, rfl⟩ : ∃ (r : Fin 100000) (j : Fin 64), i = ix2 r j := ⟨i 0, i 1, eq_ix2 i⟩
  unfold hidden2
  rw [layer64_ix2]
  unfold layer64At
  rw [val_main_v59_apply, val_main_v58_apply, val_main_v56_apply, val_main_v53_apply, val_main_v57_apply,
    val_main_v55_apply, val_main_v54_apply, val_main_call1_v0_apply, val_main_call1_cst_apply]
  simp only [lidx53_eq, ridx53_eq, lidx57_eq, ridx57_eq, idx_bl2]
  rw [cnt_read, shapeCast_a_1a_apply, Ideal.maximumf_def, Ideal.addf_def, Ideal.addf_def, Ideal.ofBits_def]
  refine congrArg₂ max (congrArg₂ (· + ·) (congrArg₂ (· + ·) (Finset.sum_congr rfl fun k _ => ?_) rfl) rfl) rfl
  rw [quot_read]

end Cert.ReferenceIdeal.Chain2

end
-- ==== Proof.RefHead.lean ====
/-
  The reference program's pair head, read at an index, is the whole-array function `Cert.Sage.scores`.

  The reference computes the head as whole-array host operations: per pair, the second-layer rows of its two nodes
  side by side (a gather for each node and a join along the feature axis), a matrix product with the weight column,
  plus the bias (a one-entry vector broadcast to a one-by-one array and then over the pairs), the one output column
  reshaped to a vector. Read at pair `p` (and the one column `q`), the matrix product is the sum over the 128 joined
  features and each broadcast reads the bias's one entry — which is `Cert.Sage.headAt` at `(p, q)`. The joined rows
  are the same gather / join chain the kernel program applies (`HostGlue`'s `pairs`), so they are carried as that name
  and never opened.
-/
import proofs.«179705_j7584912245133_2_alg».proof.Proof.Gen.ReferenceIdeal.Read
import proofs.«179705_j7584912245133_2_alg».proof.Proof.Spec
import proofs.«179705_j7584912245133_2_alg».proof.Proof.HostGlue
import proofs.«179705_j7584912245133_2_alg».proof.Proof.WholeSpec
import Idealize.ShloMosaic.Lib.Pipeline.Value
import Idealize.ShloMosaic.Lib.ValueIdx
import Idealize.ShloMosaic.Lib.ValueLayout

set_option maxRecDepth 16384

noncomputable section

namespace Cert.ReferenceIdeal.HeadChain

open Cert.ReferenceIdeal Cert.ReferenceIdeal.Gen Cert.ReferenceIdeal.Read
open Idealize.ShloMosaic Idealize.ShloMosaic.TcCoe Idealize.ShloMosaic.ValueIdx
open Cert.Sage

/-! ## The shared graph operation, by name -/

/-- Per pair, the two nodes' second-layer rows side by side are the shared chain `pairs` of the second layer's output
    and the pair list: the same slices, index shifts, gathers and join, operation for operation. -/
theorem pairs_eq (x0 : (⟨S100000x32, .f32⟩ : BufTy).Contents (Elt Ideal)) (x1 : (⟨S2x3200000, .i32⟩ : BufTy).Contents (Elt Ideal))
    (x2 : (⟨S1000000x2, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) :
    val_main_v78 (F := Ideal) x0 x1 x2 x3 x4 x5 x6 x7 x8
      = Cert.KernelIdeal.Glue.pairs (val_main_v59 (F := Ideal) x0 x1 x3 x4 x5 x6 x7 x8) x2 := rfl

/-! ## The index maps at a pair -/

theorem lidx79_eq (p : Fin 1000000) (q : Fin 1) (k : Fin 128) : lidx_main_v79 (ix2 p q) k = ix2 p k :=
  funext fun a => Fin.ext (by match a with | ⟨0, _⟩ => rfl | ⟨1, _⟩ => rfl)
theorem ridx79_eq (p : Fin 1000000) (q : Fin 1) (k : Fin 128) : ridx_main_v79 (ix2 p q) k = ix2 k q :=
  funext fun a => Fin.ext (by match a with | ⟨0, _⟩ => rfl | ⟨1, _⟩ => rfl)
/-- The bias, broadcast to a one-by-one array and then over the pairs, is read at its one entry. -/
theorem idx_bh (p : Fin 1000000) (q : Fin 1) : idx_main_v80 (idx_main_v81 (ix2 p q)) = ix1 (0 : Fin 1) :=
  funext fun a => Fin.ext (by match a with | ⟨0, _⟩ => rfl)

/-! ## The head -/

/-- The reference's head before its last reshape is `head` of the joined rows, the weight column and the bias as a
    one-by-one array. -/
theorem column_eq (x0 : (⟨S100000x32, .f32⟩ : BufTy).Contents (Elt Ideal)) (x1 : (⟨S2x3200000, .i32⟩ : BufTy).Contents (Elt Ideal))
    (x2 : (⟨S1000000x2, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal))
    (x9 : (⟨S128x1, .f32⟩ : BufTy).Contents (Elt Ideal)) (x10 : (⟨S1, .f32⟩ : BufTy).Contents (Elt Ideal)) :
    val_main_v82 (F := Ideal) x0 x1 x2 x3 x4 x5 x6 x7 x8 x9 x10
      = head (Cert.KernelIdeal.Glue.pairs (val_main_v59 (F := Ideal) x0 x1 x3 x4 x5 x6 x7 x8) x2) x9
          (shapeCast _ x10 Cert.KernelIdeal.Gen.shapeCasts_S1_S1x1) := by
  funext i
  obtain ⟨p, q, rfl⟩ : ∃ (p : Fin 1000000) (q : Fin 1), i = ix2 p q := ⟨i 0, i 1, eq_ix2 i⟩
  rw [head_ix2]
  unfold headAt
  rw [val_main_v82_apply, val_main_v79_apply, val_main_v81_apply, val_main_v80_apply]
  simp only [lidx79_eq, ridx79_eq, idx_bh, pairs_eq]
  rw [shapeCast_a_1a_apply]
  rfl

/-- The reference's result vector is `scores` of its second layer's output and the arguments. -/
theorem head_eq (x0 : (⟨S100000x32, .f32⟩ : BufTy).Contents (Elt Ideal)) (x1 : (⟨S2x3200000, .i32⟩ : BufTy).Contents (Elt Ideal))
    (x2 : (⟨S1000000x2, .i32⟩ : BufTy).Contents (Elt Ideal))
    (x3 : (⟨S32x64, .f32⟩ : BufTy).Contents (Elt Ideal)) (x4 : (⟨S64, .f32⟩ : BufTy).Contents (Elt Ideal))
    (x5 : (⟨S32x64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal))
    (x9 : (⟨S128x1, .f32⟩ : BufTy).Contents (Elt Ideal)) (x10 : (⟨S1, .f32⟩ : BufTy).Contents (Elt Ideal)) :
    val_main_v83 (F := Ideal) x0 x1 x2 x3 x4 x5 x6 x7 x8 x9 x10
      = scores (val_main_v59 (F := Ideal) x0 x1 x3 x4 x5 x6 x7 x8) x2 x9 x10 := by
  unfold val_main_v83 scores
  rw [column_eq]

end Cert.ReferenceIdeal.HeadChain

end
-- ==== Proof.RefWhole.lean ====
/-
  The reference program's result is `Cert.Sage.whole` of its arguments: its last stage is the pair head of its second
  layer's output, its second layer the layer function of its first layer's output, its first layer the layer function of
  the arguments — the three readings composed.
-/
import proofs.«179705_j7584912245133_2_alg».proof.Proof.RefChain
import proofs.«179705_j7584912245133_2_alg».proof.Proof.RefChain2
import proofs.«179705_j7584912245133_2_alg».proof.Proof.RefHead

set_option maxRecDepth 16384

noncomputable section

namespace Cert.ReferenceIdeal.Chain

open Cert.ReferenceIdeal Cert.ReferenceIdeal.Gen Cert.ReferenceIdeal.Read
open Idealize.ShloMosaic

/-- The reference's last stage, as a function of the eleven arguments, is `whole`. -/
theorem whole_eq (x0 : (⟨S100000x32, .f32⟩ : BufTy).Contents (Elt Ideal)) (x1 : (⟨S2x3200000, .i32⟩ : BufTy).Contents (Elt Ideal))
    (x2 : (⟨S1000000x2, .i32⟩ : BufTy).Contents (Elt Ideal)) (x3 : (⟨S32x64, .f32⟩ : BufTy).Contents (Elt Ideal))
    (x4 : (⟨S64, .f32⟩ : BufTy).Contents (Elt Ideal)) (x5 : (⟨S32x64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S128x1, .f32⟩ : BufTy).Contents (Elt Ideal))
    (x10 : (⟨S1, .f32⟩ : BufTy).Contents (Elt Ideal)) :
    val_main_v83 (F := Ideal) x0 x1 x2 x3 x4 x5 x6 x7 x8 x9 x10 = Cert.Sage.whole x0 x1 x2 x3 x4 x5 x6 x7 x8 x9 x10 := by
  rw [Cert.ReferenceIdeal.HeadChain.head_eq, Cert.ReferenceIdeal.Chain2.layer2_eq, layer1_eq]
  unfold Cert.Sage.whole
  rfl

end Cert.ReferenceIdeal.Chain

end
-- ==== Proof.lean ====
/-
  A two-layer mean-aggregating graph network with a pair head, written as three dense kernels among host-side gathers and
  scatter-adds, against its plain array-program reference: the two end with equal results over the extended reals.

  Both programs apply the SAME host-side graph operations (the neighbour sums by gather and scatter-add, the per-node
  count, the pair gather): these are named once (`HostGlue`) and never opened. What differs is how the dense stages are
  computed — the kernel program in row blocks, with matrix products into a zero accumulator and with operands narrowed
  to a shorter float format on the way in; the reference as whole-array matrix products and broadcasts. At the extended
  reals narrowing a format changes no value and a product into a zero accumulator is the plain sum, so block by block
  the kernel's stage IS the reference's stage read at the same rows, with the additions grouped the same way; no law
  that needs finite operands is used, and the precondition is never opened.
  `Cert.Sage.whole` names the composed function; each program is shown to end with its result at `whole` of its
  arguments, and the arguments agree.
-/
import proofs.«179705_j7584912245133_2_alg».proof.Defs
import proofs.«179705_j7584912245133_2_alg».proof.Proof.Gen.Kernel
import proofs.«179705_j7584912245133_2_alg».proof.Proof.Gen.Kernel.Frame
import proofs.«179705_j7584912245133_2_alg».proof.Proof.Gen.KernelIdeal
import proofs.«179705_j7584912245133_2_alg».proof.Proof.Gen.KernelIdeal.Frame
import proofs.«179705_j7584912245133_2_alg».proof.Proof.Gen.ReferenceIdeal
import proofs.«179705_j7584912245133_2_alg».proof.Proof.Gen.Pre_finite_inputs
import proofs.«179705_j7584912245133_2_alg».proof.Proof.Gen.ReferenceIdeal.Run
import proofs.«179705_j7584912245133_2_alg».proof.Proof.Gen.ReferenceIdeal.Read
import proofs.«179705_j7584912245133_2_alg».proof.Proof.KernelRun
import proofs.«179705_j7584912245133_2_alg».proof.Proof.KernelWhole
import proofs.«179705_j7584912245133_2_alg».proof.Proof.RefWhole
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel: there is nothing to restate. -/
theorem preserves : Cert.preserves_Kernel_KernelIdeal := trivial

/-- Both programs end with their result at `whole` of the arguments, and the arguments agree. -/
theorem algebraic : Cert.algebraic_KernelIdeal_ReferenceIdeal := by
  intro m ρ m' ρ' _ hagree
  refine ⟨fun c => Cert.Sage.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Whole.run_last (F := Ideal) m ρ)
    exact ⟨(h c _ (Cert.KernelIdeal.Gen.mem_uc Cert.KernelIdeal.main_v56 (by decide))).trans (Cert.KernelIdeal.Whole.result_eq m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v83_eq, Cert.ReferenceIdeal.Chain.whole_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2.1,
      (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
